-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000x65 : Shape := ⟨2, ![800000, 65]⟩
abbrev S256x64 : Shape := ⟨2, ![256, 64]⟩
abbrev S256 : Shape := ⟨1, ![256]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x65 : S_.BroadcastsInDim S800000x65 (![] : Fin 0 → Fin S800000x65.rank)
  reducesTo_S800000x65_S_d0_1 : S800000x65.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_v48 main_v49 main_v50

def fn_part1 {F : FTy → Type} [FloatOps F] (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x256 .f32) (main_arg1 : IVec S2x800000 32) (main_arg2 : FVec F S800000x65 .f32) (main_arg3 : FVec F S256x64 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x65 .f32 := Host.absf main_arg2
  let main_cst_0 : FVec F S_ .f32 := constant S_ .f32 0x7F800000#32
  let main_v5 : FVec F S800000x65 .f32 := broadcastInDim S800000x65 ![] bcast_S_S800000x65 main_cst_0
  let main_v6 : IVec S800000x65 1 := cmpf .olt main_v4 main_v5
  let main_c_1 : IVec S_ 1 := constantI S_ 1 1#1
  let main_v7 : IVec S_ 1 := (fun x v => Host.reduce IntOp.andi x v reducesTo_S800000x65_S_d0_1 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x800000 : Shape := ⟨2, ![2, 800000]⟩
abbrev S800000x65 : Shape := ⟨2, ![800000, 65]⟩
abbrev S256x64 : Shape := ⟨2, ![256, 64]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S64x256 : Shape := ⟨2, ![64, 256]⟩
abbrev S1x256 : Shape := ⟨2, ![1, 256]⟩
abbrev S800000x256 : Shape := ⟨2, ![800000, 256]⟩
abbrev S4000x65 : Shape := ⟨2, ![4000, 65]⟩
abbrev S4000x256 : Shape := ⟨2, ![4000, 256]⟩
abbrev S4000x1 : Shape := ⟨2, ![4000, 1]⟩
abbrev S4000x64 : Shape := ⟨2, ![4000, 64]⟩
abbrev S_ : Shape := ⟨0, ![]⟩
abbrev S800000x1 : Shape := ⟨2, ![800000, 1]⟩
abbrev S2000x256 : Shape := ⟨2, ![2000, 256]⟩
abbrev S2000 : Shape := ⟨1, ![2000]⟩
abbrev S2000x1 : Shape := ⟨2, ![2000, 1]⟩

abbrev nBuf : Space → Nat
  | .hbm => 57
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x65, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S64x256, .f32⟩
  | .hbm, ⟨20, _⟩ => ⟨S64x256, .bf16⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S256x256, .bf16⟩
  | .hbm, ⟨25, _⟩ => ⟨S1x256, .f32⟩
  | .hbm, ⟨26, _⟩ => ⟨S256x256, .f32⟩
  | .hbm, ⟨27, _⟩ => ⟨S1x256, .f32⟩
  | .hbm, ⟨28, _⟩ => ⟨S256x256, .f32⟩
  | .hbm, ⟨29, _⟩ => ⟨S256x256, .bf16⟩
  | .hbm, ⟨30, _⟩ => ⟨S256x256, .f32⟩
  | .hbm, ⟨31, _⟩ => ⟨S256x256, .bf16⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S800000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .local _ .vmem, ⟨0, _⟩ => ⟨S4000x65, .f32⟩
  | .local _ .vmem, ⟨1, _⟩ => ⟨S4000x65, .f32⟩
  | .local _ .vmem, ⟨2, _⟩ => ⟨S64x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S4000x256, .f32⟩
  | .local _ .vmem, ⟨8, _⟩ => ⟨S4000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S2000x256, .f32⟩
  | .local _ .vmem, ⟨20, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_cst : Ref sig .tc := ⟨.hbm, 49, rfl⟩
abbrev main_call0_v0 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x64_S64x256_1_0 : S256x64.Transposes [1, 0] S64x256
  bitsLt_bf16_f32 : FTy.bits .bf16 < FTy.bits .f32
  transposes_S256x256_S256x256_1_0 : S256x256.Transposes [1, 0] S256x256
  shapeCasts_S256_S1x256 : S256.ShapeCasts S1x256
  inb_S4000x65_S4000x65_0_0 : ∀ a, (![0, 0] : Fin 2 → Nat) a + S4000x65.size a ≤ S4000x65.size a
  h_S4000x65 : 0 < S4000x65.numel
  slices_S4000x65_o0_0_S4000x1 : S4000x65.Slices ![0, 0] S4000x1
  slices_S4000x65_o0_1_S4000x64 : S4000x65.Slices ![0, 1] S4000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S4000x1_S4000x256 : S4000x1.Broadcasts S4000x256
  inb_S4000x256_S4000x256_0_0 : ∀ a, (![0, 0] : Fin 2 → Nat) a + S4000x256.size a ≤ S4000x256.size a
  h_S4000x256 : 0 < S4000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x256 : S_.BroadcastsInDim S800000x256 (![] : Fin 0 → Fin S800000x256.rank)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  dot_S256x256_S256x256_S256x256_1_0_0_1_n_n_wf : DotDims.WF S256x256 S256x256 S256x256 [1] [0] [0] [1] [] []
  dot_S1x256_S256x256_S1x256_1_0_0_1_n_n_wf : DotDims.WF S1x256 S256x256 S1x256 [1] [0] [0] [1] [] []
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x65.size a ≤ S800000x65.size a
  hwx0_0 : ∀ i : grid0.Coords, EltTy.bits .f32 = 32 ∨ (Rect.block (s := S800000x65) S4000x65.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S800000x256.size a
  hwx0_6 : ∀ i : grid0.Coords, EltTy.bits .f32 = 32 ∨ (Rect.block (s := S800000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg2) S4000x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000x65 : Shape := ⟨2, ![800000, 65]⟩
abbrev S256x64 : Shape := ⟨2, ![256, 64]⟩
abbrev S256 : Shape := ⟨1, ![256]⟩
abbrev S256x256 : Shape := ⟨2, ![256, 256]⟩
abbrev S800000x1 : Shape := ⟨2, ![800000, 1]⟩
abbrev S_ : Shape := ⟨0, ![]⟩
abbrev S800000x64 : Shape := ⟨2, ![800000, 64]⟩
abbrev S64x256 : Shape := ⟨2, ![64, 256]⟩
abbrev S800000x256 : Shape := ⟨2, ![800000, 256]⟩
abbrev S1x256 : Shape := ⟨2, ![1, 256]⟩
abbrev S1x800000 : Shape := ⟨2, ![1, 800000]⟩
abbrev S800000 : Shape := ⟨1, ![800000]⟩
abbrev S50000 : Shape := ⟨1, ![50000]⟩
abbrev S50000x1 : Shape := ⟨2, ![50000, 1]⟩

abbrev nBuf : Space → Nat
  | .hbm => 112
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000x65, .f32⟩
  | .hbm, ⟨3, _⟩ => ⟨S256x64, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S800000x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S800000x1, .f32⟩
  | .hbm, ⟨20, _⟩ => ⟨S800000x1, .f32⟩
  | .hbm, ⟨21, _⟩ => ⟨S_, .f32⟩
  | .hbm, ⟨22, _⟩ => ⟨S800000x1, .f32⟩
  | .hbm, ⟨23, _⟩ => ⟨S800000x1, .f32⟩
  | .hbm, ⟨24, _⟩ => ⟨S800000x64, .f32⟩
  | .hbm, ⟨25, _⟩ => ⟨S64x256, .f32⟩
  | .hbm, ⟨26, _⟩ => ⟨S800000x256, .f32⟩
  | .hbm, ⟨27, _⟩ => ⟨S1x256, .f32⟩
  | .hbm, ⟨28, _⟩ => ⟨S800000x256, .f32⟩
  | .hbm, ⟨29, _⟩ => ⟨S800000x256, .f32⟩
  | .hbm, ⟨30, _⟩ => ⟨S_, .f32⟩
  | .hbm, ⟨31, _⟩ => ⟨S800000x256, .f32⟩
  | .hbm, ⟨32, _⟩ => ⟨S800000x256, .f32⟩
  | .hbm, ⟨33, _⟩ => ⟨S256x256, .f32⟩
  | .hbm, ⟨34, _⟩ => ⟨S800000x256, .f32⟩
  | .hbm, ⟨35, _⟩ => ⟨S1x256, .f32⟩
  | .hbm, ⟨36, _⟩ => ⟨S800000x256, .f32⟩
  | .hbm, ⟨37, _⟩ => ⟨S800000x256, .f32⟩
  | .hbm, ⟨38, _⟩ => ⟨S_, .f32⟩
  | .hbm, ⟨39, _⟩ => ⟨S800000x1, .f32⟩
  | .hbm, ⟨40, _⟩ => ⟨S800000x1, .f32⟩
  | .hbm, ⟨41, _⟩ => ⟨S800000x256, .f32⟩
  | .hbm, ⟨42, _⟩ => ⟨S800000x256, .f32⟩
  | .hbm, ⟨43, _⟩ => ⟨S256x256, .f32⟩
  | .hbm, ⟨44, _⟩ => ⟨S800000x256, .f32⟩
  | .hbm, ⟨45, _⟩ => ⟨S1x256, .f32⟩
  | .hbm, ⟨46, _⟩ => ⟨S800000x256, .f32⟩
  | .hbm, ⟨47, _⟩ => ⟨S800000x256, .f32⟩
  | .hbm, ⟨48, _⟩ => ⟨S1x800000, .i32⟩
  | .hbm, ⟨49, _⟩ => ⟨S800000, .i32⟩
  | .hbm, ⟨50, _⟩ => ⟨S1x800000, .i32⟩
  | .hbm, ⟨51, _⟩ => ⟨S800000, .i32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S800000x256, .f32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x256, .f32⟩
  | .hbm, ⟨70, _⟩ => ⟨S256x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000, .f32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .f32⟩
  | .hbm, ⟨81, _⟩ => ⟨S50000x256, .f32⟩
  | .hbm, ⟨82, _⟩ => ⟨S50000x256, .f32⟩
  | .hbm, ⟨83, _⟩ => ⟨S50000x256, .f32⟩
  | .hbm, ⟨84, _⟩ => ⟨S_, .f32⟩
  | .hbm, ⟨85, _⟩ => ⟨S50000, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S50000x1, .f32⟩
  | .hbm, ⟨94, _⟩ => ⟨S50000x1, .f32⟩
  | .hbm, ⟨95, _⟩ => ⟨S50000x1, .f32⟩
  | .hbm, ⟨96, _⟩ => ⟨S50000x256, .f32⟩
  | .hbm, ⟨97, _⟩ => ⟨S50000x256, .f32⟩
  | .hbm, ⟨98, _⟩ => ⟨S1x256, .f32⟩
  | .hbm, ⟨99, _⟩ => ⟨S50000x256, .f32⟩
  | .hbm, ⟨100, _⟩ => ⟨S50000x256, .f32⟩
  | .hbm, ⟨101, _⟩ => ⟨S1x256, .f32⟩
  | .hbm, ⟨102, _⟩ => ⟨S50000x256, .f32⟩
  | .hbm, ⟨103, _⟩ => ⟨S50000x256, .f32⟩
  | .hbm, ⟨104, _⟩ => ⟨S_, .f32⟩
  | .hbm, ⟨105, _⟩ => ⟨S50000x256, .f32⟩
  | .hbm, ⟨106, _⟩ => ⟨S50000x256, .f32⟩
  | .hbm, ⟨107, _⟩ => ⟨S256x256, .f32⟩
  | .hbm, ⟨108, _⟩ => ⟨S50000x256, .f32⟩
  | .hbm, ⟨109, _⟩ => ⟨S1x256, .f32⟩
  | .hbm, ⟨110, _⟩ => ⟨S50000x256, .f32⟩
  | .hbm, ⟨111, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call1_cst : Ref sig .tc := ⟨.hbm, 30, rfl⟩
abbrev main_call1_v0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call2_cst : Ref sig .tc := ⟨.hbm, 62, rfl⟩
abbrev main_call2_v0 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_8 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call3_cst : Ref sig .tc := ⟨.hbm, 104, rfl⟩
abbrev main_call3_v0 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]

class Facts₀ : Prop where
  slices_S800000x65_S800000x1_0_0 : S800000x65.Slices ![0, 0] S800000x1
  bcast_S_S800000x1 : S_.BroadcastsInDim S800000x1 (![] : Fin 0 → Fin S800000x1.rank)
  slices_S800000x65_S800000x64_0_1 : S800000x65.Slices ![0, 1] S800000x64
  transposes_S256x64_S64x256_1_0 : S256x64.Transposes [1, 0] S64x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S256x256_S256x256_1_0 : S256x256.Transposes [1, 0] S256x256
  bcast_S800000x1_S800000x256_0_1 : S800000x1.BroadcastsInDim S800000x256 (![0, 1] : Fin 2 → Fin S800000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S800000x64_S64x256_S800000x256_1_0_0_1_n_n_wf : DotDims.WF S800000x64 S64x256 S800000x256 [1] [0] [0] [1] [] []
  dot_S800000x256_S256x256_S800000x256_1_0_0_1_n_n_wf : DotDims.WF S800000x256 S256x256 S800000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S800000x64_S64x256_S800000x256_1_0_0_1_n_n : DotDims S800000x64 S64x256 S800000x256 where
  lhsContracting := [1]
  rhsContracting := [0]
  lhsNonContracting := [0]
  rhsNonContracting := [1]
  lhsBatch := []
  rhsBatch := []
  wf := dot_S800000x64_S64x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The kernel program's run with its result named. The program is two grid regions among stretches of host operations;
  the contents of every buffer at each boundary are a fold from the launch memory, ending at the contents after the second
  region. Every weakly fair execution terminates without a fault in a state whose unscoped buffers hold those last
  contents: in particular the result buffer holds the second region's output array after its grid, and the fifteen
  arguments are as launched.
-/
import proofs.«155204_j84877143703601_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output window. -/
theorem result_is_window : Pipeline.arrRef spec1 8 = main_v36 := rfl

/-- After the last boundary the result buffer holds the second region's output array after its 25 points. -/
theorem W6_result (c : Dev nD) :
    W6 m ρ c (Proc.devRef .tc main_v36) = (dat1 (V5 m ρ) c).arrAt 8 cfg1.N := W6_arr m ρ c 8

set_option backward.isDefEq.respectTransparency.types false in
/-- The run: termination, no fault, the result buffer at the last boundary's contents, the arguments as launched. -/
theorem run_result : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.RunValue

end
-- ==== Proof.Spec.lean ====
/-
  One message-passing layer, one row at a time, on the extended reals.

  An edge's row of 65 features splits into a polarity a0 and 64 raw features a. The edge embedding is a gated
  two-layer perceptron followed by a linear map; the two programs group it differently:
    reference order   emb j = Σ_k ((Σ_l hid l · w2 l k + b2 k) · gate) · w3 k j + b3 j
    folded order      emb j = gate · (Σ_l hid l · wc l j + bc j) + b3 j,   wc l j = Σ_k w2 l k · w3 k j,  bc j = Σ_k b2 k · w3 k j
  with hid l = max (Σ_f a f · w1 f l + b1 l) 0 and gate = min 1 (max 0 a0) + c. On real numbers the two agree: the
  gate is one scalar per row, so it moves out of the sum over k, and the two sums over k and l exchange.
  A node's row s (features plus aggregated messages) goes through an affine map, a layer normalisation over the row
  (mean, variance, reciprocal square root, scale and shift), the maximum with zero and a second affine map.
  Every array enters through a function of plain finite coordinates, so that the same row function reads a block of
  rows, a whole array, a transposed weight or a [1, n] row vector. The float literals stay as the patterns the
  programs print.
-/
import Idealize.ShloMosaic.PureOps.Ideal

noncomputable section

namespace Cert.Gnn

open Idealize.ShloMosaic

/-- The literals of both programs, as the extended reals their patterns denote. -/
abbrev zero32 : EReal := Ideal.ofBits .f32 0x00000000#32
abbrev one32 : EReal := Ideal.ofBits .f32 0x3F800000#32
abbrev c01 : EReal := Ideal.ofBits .f32 0x3C23D70A#32
abbrev c256 : EReal := Ideal.ofBits .f32 0x43800000#32
abbrev eps32 : EReal := Ideal.ofBits .f32 0x3727C5AC#32

/-- An extended real that is a real number. -/
def IsFin (x : EReal) : Prop := ∃ y : ℝ, x = (y : EReal)

/-- Raw feature f of an edge sits in column f + 1 of its 65 features (column 0 is the polarity). -/
def raw (f : Fin 64) : Fin 65 := ⟨f.val + 1, Nat.succ_lt_succ f.isLt⟩

/-- The gate of an edge: its polarity clipped to [0, 1], plus the literal c. -/
def gateF (a0 : EReal) : EReal := min one32 (max zero32 a0) + c01

/-- The hidden layer of an edge at unit l: max (Σ_f a f · w1 f l + b1 l) 0. -/
def hidF (a : Fin 64 → EReal) (w1 : Fin 64 → Fin 256 → EReal) (b1 : Fin 256 → EReal) (l : Fin 256) : EReal :=
  max ((∑ f : Fin 64, a f * w1 f l) + b1 l) zero32

/-- The edge embedding in the folded order, over a folded weight wc and a folded bias bc. -/
def edgeKF (a0 : EReal) (a : Fin 64 → EReal) (w1 : Fin 64 → Fin 256 → EReal) (b1 : Fin 256 → EReal)
    (wc : Fin 256 → Fin 256 → EReal) (bc b3 : Fin 256 → EReal) (j : Fin 256) : EReal :=
  gateF a0 * ((∑ l : Fin 256, hidF a w1 b1 l * wc l j) + bc j) + b3 j

/-- The edge embedding in the reference order. -/
def edgeRF (a0 : EReal) (a : Fin 64 → EReal) (w1 : Fin 64 → Fin 256 → EReal) (b1 : Fin 256 → EReal)
    (w2 : Fin 256 → Fin 256 → EReal) (b2 : Fin 256 → EReal) (w3 : Fin 256 → Fin 256 → EReal) (b3 : Fin 256 → EReal)
    (j : Fin 256) : EReal :=
  (∑ k : Fin 256, (((∑ l : Fin 256, hidF a w1 b1 l * w2 l k) + b2 k) * gateF a0) * w3 k j) + b3 j

/-- The first affine map of a node's row s. -/
def nodeH (s : Fin 256 → EReal) (w1 : Fin 256 → Fin 256 → EReal) (b1 : Fin 256 → EReal) (n : Fin 256) : EReal :=
  (∑ k : Fin 256, s k * w1 k n) + b1 n

/-- The row's mean. -/
def nodeMu (h : Fin 256 → EReal) : EReal := Ideal.div (∑ n : Fin 256, h n) c256

/-- The row's reciprocal standard deviation: rsqrt (mean of squared deviations + ε). -/
def nodeRs (h : Fin 256 → EReal) : EReal :=
  Ideal.rsqrt (Ideal.div (∑ n : Fin 256, (h n - nodeMu h) * (h n - nodeMu h)) c256 + eps32)

/-- The normalised, scaled, shifted row, cut at zero. -/
def nodeAct (h : Fin 256 → EReal) (g β : Fin 256 → EReal) (n : Fin 256) : EReal :=
  max ((h n - nodeMu h) * nodeRs h * g n + β n) zero32

/-- A node's output row: affine, layer normalisation, maximum with zero, affine. -/
def nodeF (s : Fin 256 → EReal) (w1 : Fin 256 → Fin 256 → EReal) (b1 g β : Fin 256 → EReal)
    (w2 : Fin 256 → Fin 256 → EReal) (b2 : Fin 256 → EReal) (j : Fin 256) : EReal :=
  (∑ n : Fin 256, nodeAct (nodeH s w1 b1) g β n * w2 n j) + b2 j

end Cert.Gnn

end
-- ==== Proof.NodeArray.lean ====
/-
  The node kernel's output array after its 25 grid points: every point writes back rows 2000·t … 2000·t + 1999, each
  row the node row function of the same row of the two row-tiled inputs (features, aggregated messages) and of the six
  resident weight blocks, which every point sees whole. The 25 blocks tile the 50000 rows, so the array ends as one
  function of the arrays the region finds at entry.
-/
import proofs.«155204_j84877143703601_2_alg».proof.Proof.Gen.KernelIdeal.Frame
import proofs.«155204_j84877143703601_2_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the node region's windows at point t: the three row-tiled windows sit at block t of the rows,
    the six resident ones at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The node region's arrays as it finds them, as functions of their indices. -/
abbrev nX (c : Dev nD) : S50000x256.Idx → EReal := V c main_arg0
abbrev nA (c : Dev nD) : S50000x256.Idx → EReal := V c main_v35
abbrev nW1 (c : Dev nD) : S256x256.Idx → EReal := V c main_v14
abbrev nB1 (c : Dev nD) : S1x256.Idx → EReal := V c main_v19
abbrev nG (c : Dev nD) : S1x256.Idx → EReal := V c main_v21
abbrev nBt (c : Dev nD) : S1x256.Idx → EReal := V c main_v22
abbrev nW2 (c : Dev nD) : S256x256.Idx → EReal := V c main_v16
abbrev nB2 (c : Dev nD) : S1x256.Idx → EReal := V c main_v20

/-- The node region's output as one function of the arrays at entry: row i₀ is the node row function of row i₀ of the
    features plus row i₀ of the aggregated messages. -/
def nodeG (c : Dev nD) : S50000x256.Idx → EReal := fun i =>
  nodeF (fun k => nX V c (ix2 (⟨(i 0).val, (i 0).isLt⟩ : Fin 50000) k) + nA V c (ix2 (⟨(i 0).val, (i 0).isLt⟩ : Fin 50000) k))
    (fun k n => nW1 V c (ix2 k n)) (fun n => nB1 V c (ix2 (0 : Fin 1) n)) (fun n => nG V c (ix2 (0 : Fin 1) n))
    (fun n => nBt V c (ix2 (0 : Fin 1) n)) (fun k n => nW2 V c (ix2 k n)) (fun n => nB2 V c (ix2 (0 : Fin 1) n))
    (⟨(i 1).val, (i 1).isLt⟩ : Fin 256)

/-- A row-tiled input block at point t, row p, is row 2000·t + p of its array. -/
theorem blk1_0 (c : Dev nD) (t : Fin cfg1.N) (p : Fin 2000) (k : Fin 256) (h : t.val * 2000 + p.val < 50000) :
    iblk1 V c 0 t (ix2 p k) = nX V c (ix2 (⟨t.val * 2000 + p.val, h⟩ : Fin 50000) k) := by
  obtain ⟨e0, e1, -⟩ := idx1 t
  show nX V c (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

theorem blk1_1 (c : Dev nD) (t : Fin cfg1.N) (p : Fin 2000) (k : Fin 256) (h : t.val * 2000 + p.val < 50000) :
    iblk1 V c 1 t (ix2 p k) = nA V c (ix2 (⟨t.val * 2000 + p.val, h⟩ : Fin 50000) k) := by
  obtain ⟨-, -, e0, e1, -⟩ := idx1 t
  show nA V c (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

/-- A resident block is its whole array at every point. -/
theorem blk1_2 (c : Dev nD) (t : Fin cfg1.N) (k n : Fin 256) : iblk1 V c 2 t (ix2 k n) = nW1 V c (ix2 k n) := by
  obtain ⟨-, -, -, -, -, -, e0, e1, -⟩ := idx1 t
  show nW1 V c (((cfg1.win 2).blk t).view.emb (ix2 k n)) = _
  refine congrArg _ (funext fun a => Fin.ext ?_)
  match a with
  | ⟨0, _⟩ => show win1_2.index t (0 : Fin 2) * 256 + 1 * k.val = k.val; omega
  | ⟨1, _⟩ => show win1_2.index t (1 : Fin 2) * 256 + 1 * n.val = n.val; omega

theorem blk1_3 (c : Dev nD) (t : Fin cfg1.N) (n : Fin 256) : iblk1 V c 3 t (ix2 (0 : Fin 1) n) = nB1 V c (ix2 (0 : Fin 1) n) := by
  obtain ⟨-, -, -, -, -, -, -, -, e0, e1, -⟩ := idx1 t
  show nB1 V c (((cfg1.win 3).blk t).view.emb (ix2 (0 : Fin 1) n)) = _
  refine congrArg _ (funext fun a => Fin.ext ?_)
  match a with
  | ⟨0, _⟩ => show win1_3.index t (0 : Fin 2) * 1 + 1 * 0 = 0; omega
  | ⟨1, _⟩ => show win1_3.index t (1 : Fin 2) * 256 + 1 * n.val = n.val; omega

theorem blk1_4 (c : Dev nD) (t : Fin cfg1.N) (n : Fin 256) : iblk1 V c 4 t (ix2 (0 : Fin 1) n) = nG V c (ix2 (0 : Fin 1) n) := by
  obtain ⟨-, -, -, -, -, -, -, -, -, -, e0, e1, -⟩ := idx1 t
  show nG V c (((cfg1.win 4).blk t).view.emb (ix2 (0 : Fin 1) n)) = _
  refine congrArg _ (funext fun a => Fin.ext ?_)
  match a with
  | ⟨0, _⟩ => show win1_4.index t (0 : Fin 2) * 1 + 1 * 0 = 0; omega
  | ⟨1, _⟩ => show win1_4.index t (1 : Fin 2) * 256 + 1 * n.val = n.val; omega

theorem blk1_5 (c : Dev nD) (t : Fin cfg1.N) (n : Fin 256) : iblk1 V c 5 t (ix2 (0 : Fin 1) n) = nBt V c (ix2 (0 : Fin 1) n) := by
  obtain ⟨-, -, -, -, -, -, -, -, -, -, -, -, e0, e1, -⟩ := idx1 t
  show nBt V c (((cfg1.win 5).blk t).view.emb (ix2 (0 : Fin 1) n)) = _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * n.val = n.val; omega

theorem blk1_6 (c : Dev nD) (t : Fin cfg1.N) (k n : Fin 256) : iblk1 V c 6 t (ix2 k n) = nW2 V c (ix2 k n) := by
  obtain ⟨-, -, -, -, -, -, -, -, -, -, -, -, -, -, e0, e1, -⟩ := idx1 t
  show nW2 V c (((cfg1.win 6).blk t).view.emb (ix2 k n)) = _
  refine congrArg _ (funext fun a => Fin.ext ?_)
  match a with
  | ⟨0, _⟩ => show win1_6.index t (0 : Fin 2) * 256 + 1 * k.val = k.val; omega
  | ⟨1, _⟩ => show win1_6.index t (1 : Fin 2) * 256 + 1 * n.val = n.val; omega

theorem blk1_7 (c : Dev nD) (t : Fin cfg1.N) (n : Fin 256) : iblk1 V c 7 t (ix2 (0 : Fin 1) n) = nB2 V c (ix2 (0 : Fin 1) n) := by
  obtain ⟨-, -, -, -, -, -, -, -, -, -, -, -, -, -, -, -, e0, e1⟩ := idx1 t
  show nB2 V c (((cfg1.win 7).blk t).view.emb (ix2 (0 : Fin 1) n)) = _
  refine congrArg _ (funext fun a => Fin.ext ?_)
  match a with
  | ⟨0, _⟩ => show win1_7.index t (0 : Fin 2) * 1 + 1 * 0 = 0; omega
  | ⟨1, _⟩ => show win1_7.index t (1 : Fin 2) * 256 + 1 * n.val = n.val; omega

/-- The node row function depends on its arguments only through their values. -/
theorem nodeF_congr {s s' : Fin 256 → EReal} {w1 w1' : Fin 256 → Fin 256 → EReal} {b1 b1' g g' β β' : Fin 256 → EReal}
    {w2 w2' : Fin 256 → Fin 256 → EReal} {b2 b2' : Fin 256 → EReal} (j : Fin 256)
    (hs : ∀ k, s k = s' k) (hw1 : ∀ k n, w1 k n = w1' k n) (hb1 : ∀ n, b1 n = b1' n) (hg : ∀ n, g n = g' n) (hβ : ∀ n, β n = β' n)
    (hw2 : ∀ k n, w2 k n = w2' k n) (hb2 : ∀ n, b2 n = b2' n) :
    nodeF s w1 b1 g β w2 b2 j = nodeF s' w1' b1' g' β' w2' b2' j := by
  obtain rfl : s = s' := funext hs
  obtain rfl : w1 = w1' := funext fun k => funext (hw1 k)
  obtain rfl : b1 = b1' := funext hb1
  obtain rfl : g = g' := funext hg
  obtain rfl : β = β' := funext hβ
  obtain rfl : w2 = w2' := funext fun k => funext (hw2 k)
  obtain rfl : b2 = b2' := funext hb2
  rfl

/-- The node kernel's stored value read at a row and a channel (what the payload module proves of the body's arithmetic). -/
abbrev NodePay : Prop := ∀ (x0 x1 : Vec Ideal S2000x256 .f32) (x2 : Vec Ideal S256x256 .bf16) (x3 x4 x5 : Vec Ideal S1x256 .f32)
    (x6 : Vec Ideal S256x256 .bf16) (x7 : Vec Ideal S1x256 .f32) (r : Fin 2000) (j : Fin 256),
    k1_pay1 (F := Ideal) (k1_pay2 (F := Ideal) x0 x1 x2 x3 x4 x5) x6 x7 (ix2 r j)
      = nodeF (fun k => x0 (ix2 r k) + x1 (ix2 r k)) (fun k n => x2 (ix2 k n)) (fun n => x3 (ix2 (0 : Fin 1) n)) (fun n => x4 (ix2 (0 : Fin 1) n))
          (fun n => x5 (ix2 (0 : Fin 1) n)) (fun k n => x6 (ix2 k n)) (fun n => x7 (ix2 (0 : Fin 1) n)) j

/-- What point t writes back is block t of the one function. -/
theorem flushed1_8_eq (hpay : NodePay) (c : Dev nD) (t : Fin cfg1.N) :
    (dat1 V c).flushed 8 t = ((cfg1.win 8).blk t).view.read (Elt Ideal) (nodeG V c) := by
  show (cfg1.win 8).cut (grid1.coords t) ((dat1 V c).after 8 t) = _
  rw [after1_8]
  unfold out1_8
  rw [View.canon_unit_zero hz]
  simp only [View.ld_unit_zero (S := S2000x256) hz, View.ld_unit_zero (S := S256x256) hz, View.ld_unit_zero (S := S1x256) hz]
  funext y
  obtain ⟨p, q, rfl⟩ : ∃ (p : Fin 2000) (q : Fin 256), y = ix2 p q := ⟨y 0, y 1, eq_ix2 y⟩
  have ht : t.val < 25 := lt_of_lt_of_eq t.isLt N_1
  have hrow : t.val * 2000 + p.val < 50000 := by have := p.isLt; omega
  obtain ⟨-, -, -, -, e8, e8', -⟩ := idx1 t
  show k1_pay1 (k1_pay2 (iblk1 V c 0 t) (iblk1 V c 1 t) (iblk1 V c 2 t) (iblk1 V c 3 t) (iblk1 V c 4 t) (iblk1 V c 5 t)) (iblk1 V c 6 t) (iblk1 V c 7 t) (ix2 p q)
      = nodeG V c (((cfg1.win 8).blk t).view.emb (ix2 p q))
  refine (hpay (iblk1 V c 0 t) (iblk1 V c 1 t) (iblk1 V c 2 t) (iblk1 V c 3 t) (iblk1 V c 4 t) (iblk1 V c 5 t) (iblk1 V c 6 t) (iblk1 V c 7 t) p q).trans ?_
  have hemb : ((cfg1.win 8).blk t).view.emb (ix2 p q) = ix2 (⟨t.val * 2000 + p.val, hrow⟩ : Fin 50000) q :=
    funext fun a => Fin.ext (by
      match a with
      | ⟨0, _⟩ => show win1_8.index t (0 : Fin 2) * 2000 + 1 * p.val = t.val * 2000 + p.val; omega
      | ⟨1, _⟩ => show win1_8.index t (1 : Fin 2) * 256 + 1 * q.val = q.val; omega)
  rw [hemb]
  exact nodeF_congr q (fun k => by rw [blk1_0 V c t p k hrow, blk1_1 V c t p k hrow]) (fun k n => blk1_2 V c t k n)
    (fun n => blk1_3 V c t n) (fun n => blk1_4 V c t n) (fun n => blk1_5 V c t n) (fun k n => blk1_6 V c t k n) (fun n => blk1_7 V c t n)

/-- Every row of the output lies in the block of the point that holds it: row i₀ in block i₀ / 2000. -/
theorem cover1_8' (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  have hN : (i 0).val / 2000 < cfg1.N := by rw [show cfg1.N = 25 from N_1]; omega
  refine ⟨⟨(i 0).val / 2000, hN⟩, flush1_8 _, ?_⟩
  obtain ⟨-, -, -, -, e8, e8', -⟩ := idx1 ⟨(i 0).val / 2000, hN⟩
  show i ∈ ((View.whole main_v36).slice (win1_8.rect ⟨(i 0).val / 2000, hN⟩)).set
  rw [View.set_slice_whole, Rect.mem_set_unit]
  intro a
  match a with
  | ⟨0, _⟩ =>
    show win1_8.index ⟨(i 0).val / 2000, hN⟩ (0 : Fin 2) * 2000 ≤ (i 0).val ∧ (i 0).val < win1_8.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win1_8.index ⟨(i 0).val / 2000, hN⟩ (1 : Fin 2) * 256 ≤ (i 1).val ∧ (i 1).val < win1_8.index ⟨(i 0).val / 2000, hN⟩ (1 : Fin 2) * 256 + 256
    rw [e8']; omega

/-- The node region's output array after the run of its grid. -/
theorem node_final (hpay : NodePay) (c : Dev nD) : (dat1 V c).arrAt 8 cfg1.N = nodeG V c :=
  (dat1 V c).arrAt_eq_of_cover 8 (nodeG V c) (fun t _ => flushed1_8_eq V hpay c t) (cover1_8')

end Cert.KernelIdeal.Arrays

end
-- ==== Proof.EdgeArray.lean ====
/-
  The edge kernel's output array after its 200 grid points: every point writes back rows 4000·t … 4000·t + 3999, each
  row the folded-order edge row function of the same row of the edge features and of the five resident weight blocks,
  which every point sees whole. The 200 blocks tile the 800000 rows, so the array ends as one function of the arrays
  the region finds at entry.
-/
import proofs.«155204_j84877143703601_2_alg».proof.Proof.Gen.KernelIdeal.Frame
import proofs.«155204_j84877143703601_2_alg».proof.Proof.Spec
import Idealize.ShloMosaic.Lib.Pipeline.Value
import Idealize.ShloMosaic.Lib.ValueIdx

set_option maxRecDepth 16384

noncomputable section

namespace Cert.KernelIdeal.EdgeArr

open Cert.KernelIdeal Cert.KernelIdeal.Gen Idealize.ShloMosaic Idealize.ShloMosaic.TcCoe Idealize.ShloMosaic.ValueIdx
open Idealize.SL.Sem Cert.Gnn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the edge region's windows at point t: the two row-tiled windows sit at block t of the rows,
    the five resident ones at block 0. -/
theorem idx0 : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The edge region's arrays as it finds them, as functions of their indices. -/
abbrev eA (c : Dev nD) : S800000x65.Idx → EReal := V c main_arg2
abbrev eW1 (c : Dev nD) : S64x256.Idx → EReal := V c main_v5
abbrev eB1 (c : Dev nD) : S1x256.Idx → EReal := V c main_v17
abbrev eWc (c : Dev nD) : S256x256.Idx → EReal := V c main_v9
abbrev eBc (c : Dev nD) : S1x256.Idx → EReal := V c main_v12
abbrev eB3 (c : Dev nD) : S1x256.Idx → EReal := V c main_v18

/-- The edge region's output as one function of the arrays at entry: row i₀ is the folded-order edge row function of
    row i₀ of the features. -/
def edgeG (c : Dev nD) : S800000x256.Idx → EReal := fun i =>
  edgeKF (eA V c (ix2 (⟨(i 0).val, (i 0).isLt⟩ : Fin 800000) (0 : Fin 65)))
    (fun f => eA V c (ix2 (⟨(i 0).val, (i 0).isLt⟩ : Fin 800000) (raw f)))
    (fun f l => eW1 V c (ix2 f l)) (fun l => eB1 V c (ix2 (0 : Fin 1) l)) (fun l j => eWc V c (ix2 l j))
    (fun j => eBc V c (ix2 (0 : Fin 1) j)) (fun j => eB3 V c (ix2 (0 : Fin 1) j))
    (⟨(i 1).val, (i 1).isLt⟩ : Fin 256)

/-- The feature block at point t, row p, is row 4000·t + p of the feature array. -/
theorem blk0_0 (c : Dev nD) (t : Fin cfg0.N) (p : Fin 4000) (k : Fin 65) (h : t.val * 4000 + p.val < 800000) :
    iblk0 V c 0 t (ix2 p k) = eA V c (ix2 (⟨t.val * 4000 + p.val, h⟩ : Fin 800000) k) := by
  obtain ⟨e0, e1, -⟩ := idx0 t
  show eA V c (((cfg0.win 0).blk t).view.emb (ix2 p k)) = _
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 65 + 1 * k.val = k.val; omega

/-- A resident block is its whole array at every point. -/
theorem blk0_1 (c : Dev nD) (t : Fin cfg0.N) (f : Fin 64) (l : Fin 256) : iblk0 V c 1 t (ix2 f l) = eW1 V c (ix2 f l) := by
  obtain ⟨-, -, -, -, e0, e1, -⟩ := idx0 t
  show eW1 V c (((cfg0.win 1).blk t).view.emb (ix2 f l)) = _
  refine congrArg _ (funext fun a => Fin.ext ?_)
  match a with
  | ⟨0, _⟩ => show win0_1.index t (0 : Fin 2) * 64 + 1 * f.val = f.val; omega
  | ⟨1, _⟩ => show win0_1.index t (1 : Fin 2) * 256 + 1 * l.val = l.val; omega

theorem blk0_2 (c : Dev nD) (t : Fin cfg0.N) (n : Fin 256) : iblk0 V c 2 t (ix2 (0 : Fin 1) n) = eB1 V c (ix2 (0 : Fin 1) n) := by
  obtain ⟨-, -, -, -, -, -, e0, e1, -⟩ := idx0 t
  show eB1 V c (((cfg0.win 2).blk t).view.emb (ix2 (0 : Fin 1) n)) = _
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * n.val = n.val; omega

theorem blk0_3 (c : Dev nD) (t : Fin cfg0.N) (k n : Fin 256) : iblk0 V c 3 t (ix2 k n) = eWc V c (ix2 k n) := by
  obtain ⟨-, -, -, -, -, -, -, -, e0, e1, -⟩ := idx0 t
  show eWc V c (((cfg0.win 3).blk t).view.emb (ix2 k n)) = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * n.val = n.val; omega

theorem blk0_4 (c : Dev nD) (t : Fin cfg0.N) (n : Fin 256) : iblk0 V c 4 t (ix2 (0 : Fin 1) n) = eBc V c (ix2 (0 : Fin 1) n) := by
  obtain ⟨-, -, -, -, -, -, -, -, -, -, e0, e1, -⟩ := idx0 t
  show eBc V c (((cfg0.win 4).blk t).view.emb (ix2 (0 : Fin 1) n)) = _
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * n.val = n.val; omega

theorem blk0_5 (c : Dev nD) (t : Fin cfg0.N) (n : Fin 256) : iblk0 V c 5 t (ix2 (0 : Fin 1) n) = eB3 V c (ix2 (0 : Fin 1) n) := by
  obtain ⟨-, -, -, -, -, -, -, -, -, -, -, -, e0, e1⟩ := idx0 t
  show eB3 V c (((cfg0.win 5).blk t).view.emb (ix2 (0 : Fin 1) n)) = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * n.val = n.val; omega

/-- The edge row function depends on its arguments only through their values. -/
theorem edgeKF_congr {a0 a0' : EReal} {a a' : Fin 64 → EReal} {w1 w1' : Fin 64 → Fin 256 → EReal} {b1 b1' : Fin 256 → EReal}
    {wc wc' : Fin 256 → Fin 256 → EReal} {bc bc' b3 b3' : Fin 256 → EReal} (j : Fin 256)
    (h0 : a0 = a0') (ha : ∀ f, a f = a' f) (hw1 : ∀ f l, w1 f l = w1' f l) (hb1 : ∀ l, b1 l = b1' l)
    (hwc : ∀ l n, wc l n = wc' l n) (hbc : ∀ n, bc n = bc' n) (hb3 : ∀ n, b3 n = b3' n) :
    edgeKF a0 a w1 b1 wc bc b3 j = edgeKF a0' a' w1' b1' wc' bc' b3' j := by
  subst h0
  obtain rfl : a = a' := funext ha
  obtain rfl : w1 = w1' := funext fun f => funext (hw1 f)
  obtain rfl : b1 = b1' := funext hb1
  obtain rfl : wc = wc' := funext fun l => funext (hwc l)
  obtain rfl : bc = bc' := funext hbc
  obtain rfl : b3 = b3' := funext hb3
  rfl

/-- The edge kernel's stored value read at a row and a channel (what the payload module proves of the body's arithmetic). -/
abbrev EdgePay : Prop := ∀ (x0 : Vec Ideal S4000x65 .f32) (x1 : Vec Ideal S64x256 .bf16) (x2 : Vec Ideal S1x256 .f32) (x3 : Vec Ideal S256x256 .bf16)
    (x4 x5 : Vec Ideal S1x256 .f32) (r : Fin 4000) (j : Fin 256),
    k0_pay1 (F := Ideal) x0 x1 x2 x3 x4 x5 (ix2 r j)
      = edgeKF (x0 (ix2 r (0 : Fin 65))) (fun f => x0 (ix2 r (raw f))) (fun f l => x1 (ix2 f l)) (fun l => x2 (ix2 (0 : Fin 1) l))
          (fun l j' => x3 (ix2 l j')) (fun j' => x4 (ix2 (0 : Fin 1) j')) (fun j' => x5 (ix2 (0 : Fin 1) j')) j

/-- What point t writes back is block t of the one function. -/
theorem flushed0_6_eq (hpay : EdgePay) (c : Dev nD) (t : Fin cfg0.N) :
    (dat0 V c).flushed 6 t = ((cfg0.win 6).blk t).view.read (Elt Ideal) (edgeG V c) := by
  show (cfg0.win 6).cut (grid0.coords t) ((dat0 V c).after 6 t) = _
  rw [after0_6]
  unfold out0_6
  rw [View.canon_unit_zero hz]
  simp only [View.ld_unit_zero (S := S4000x65) hz, View.ld_unit_zero (S := S64x256) hz, View.ld_unit_zero (S := S256x256) hz, View.ld_unit_zero (S := S1x256) hz]
  funext y
  obtain ⟨p, q, rfl⟩ : ∃ (p : Fin 4000) (q : Fin 256), y = ix2 p q := ⟨y 0, y 1, eq_ix2 y⟩
  have ht : t.val < 200 := lt_of_lt_of_eq t.isLt N_0
  have hrow : t.val * 4000 + p.val < 800000 := by have := p.isLt; omega
  obtain ⟨-, -, e6, e6', -⟩ := idx0 t
  show k0_pay1 (iblk0 V c 0 t) (iblk0 V c 1 t) (iblk0 V c 2 t) (iblk0 V c 3 t) (iblk0 V c 4 t) (iblk0 V c 5 t) (ix2 p q)
      = edgeG V c (((cfg0.win 6).blk t).view.emb (ix2 p q))
  refine (hpay (iblk0 V c 0 t) (iblk0 V c 1 t) (iblk0 V c 2 t) (iblk0 V c 3 t) (iblk0 V c 4 t) (iblk0 V c 5 t) p q).trans ?_
  have hemb : ((cfg0.win 6).blk t).view.emb (ix2 p q) = ix2 (⟨t.val * 4000 + p.val, hrow⟩ : Fin 800000) q :=
    funext fun a => Fin.ext (by
      match a with
      | ⟨0, _⟩ => show win0_6.index t (0 : Fin 2) * 4000 + 1 * p.val = t.val * 4000 + p.val; omega
      | ⟨1, _⟩ => show win0_6.index t (1 : Fin 2) * 256 + 1 * q.val = q.val; omega)
  rw [hemb]
  exact edgeKF_congr q (blk0_0 V c t p (0 : Fin 65) hrow) (fun f => blk0_0 V c t p (raw f) hrow) (fun f l => blk0_1 V c t f l)
    (fun l => blk0_2 V c t l) (fun l n => blk0_3 V c t l n) (fun n => blk0_4 V c t n) (fun n => blk0_5 V c t n)

/-- Every row of the output lies in the block of the point that holds it: row i₀ in block i₀ / 4000. -/
theorem cover0_6' (i : S800000x256.Idx) : ∃ t : Fin cfg0.N, (cfg0.win 6).flush t = true ∧ i ∈ ((cfg0.win 6).blk t).view.set := by
  have hi0 : (i 0).val < 800000 := (i 0).isLt
  have hi1 : (i 1).val < 256 := (i 1).isLt
  have hN : (i 0).val / 4000 < cfg0.N := by rw [show cfg0.N = 200 from N_0]; omega
  refine ⟨⟨(i 0).val / 4000, hN⟩, flush0_6 _, ?_⟩
  obtain ⟨-, -, e6, e6', -⟩ := idx0 ⟨(i 0).val / 4000, hN⟩
  show i ∈ ((View.whole main_v23).slice (win0_6.rect ⟨(i 0).val / 4000, hN⟩)).set
  rw [View.set_slice_whole, Rect.mem_set_unit]
  intro a
  match a with
  | ⟨0, _⟩ =>
    show win0_6.index ⟨(i 0).val / 4000, hN⟩ (0 : Fin 2) * 4000 ≤ (i 0).val ∧ (i 0).val < win0_6.index ⟨(i 0).val / 4000, hN⟩ (0 : Fin 2) * 4000 + 4000
    rw [e6]; show (i 0).val / 4000 * 4000 ≤ (i 0).val ∧ (i 0).val < (i 0).val / 4000 * 4000 + 4000; omega
  | ⟨1, _⟩ =>
    show win0_6.index ⟨(i 0).val / 4000, hN⟩ (1 : Fin 2) * 256 ≤ (i 1).val ∧ (i 1).val < win0_6.index ⟨(i 0).val / 4000, hN⟩ (1 : Fin 2) * 256 + 256
    rw [e6']; omega

/-- The edge region's output array after the run of its grid. -/
theorem edge_final (hpay : EdgePay) (c : Dev nD) : (dat0 V c).arrAt 6 cfg0.N = edgeG V c :=
  (dat0 V c).arrAt_eq_of_cover 6 (edgeG V c) (fun t _ => flushed0_6_eq V hpay c t) (cover0_6' )

end Cert.KernelIdeal.EdgeArr

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.KernelPayload.lean ====
/-
  The two kernel bodies' arithmetic, read at one index of what each stores.

  Each body is a chain of pointwise operations on blocks (sum, product, difference, quotient, maximum, minimum,
  reciprocal square root, format changes that are the identity on extended reals), interleaved with a few operations
  that move entries: column slices of the feature block, a row vector repeated over the rows, a per-row statistic kept
  as a column and repeated along the row, a sum along the row, and matrix products accumulated into the zero block.
  Read at row r and channel j, the pointwise operations act on the entries at (r, j); each moving operation is replaced
  by the one entry (or the one finite sum of entries) it reads. What remains is, term for term, the specification's
  row function of row r of the row-indexed blocks and of the whole weight blocks.
-/
import proofs.«155204_j84877143703601_2_alg».proof.Proof.Gen.KernelIdeal.Skeleton
import proofs.«155204_j84877143703601_2_alg».proof.Proof.Spec
import proofs.«155204_j84877143703601_2_alg».proof.Proof.LibColumnCasts
import proofs.«155204_j84877143703601_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Payload
open Cert.KernelIdeal Idealize.ShloMosaic Idealize.ShloMosaic.ValueIdx Cert.Gnn

/-! ## Matrix products into the zero block, read at an index

For each of the three products the contraction runs over one axis; its index set is identified with the range of that
one coordinate, and the two operand entries at output index (r, j) and contraction coordinate k are (r, k) and (k, j). -/

private theorem lhs2000_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lhs2000_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem rhs2000_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem rhs2000_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000 × 256 block times a 256 × 256 block, accumulated into the zero block, read at (r, j): the sum over the
    contracted coordinate of the products of the two entries. -/
private theorem matmul2000_apply (A : FVec Ideal S2000x256 .bf16) (B : FVec Ideal S256x256 .bf16) (r : Fin 2000) (j : Fin 256) :
    matmul dot_S2000x256_S256x256_S2000x256_1_0_0_1_n_n none A B (constant S2000x256 .f32 0x00000000#32) (ix2 r j)
      = ∑ k : Fin 256, A (ix2 r k) * B (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs2000_0 _ _
    | ⟨1, _⟩ => exact (lhs2000_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (rhs2000_0 _ _).trans hk
    | ⟨1, _⟩ => exact rhs2000_1 _ _)
  rw [el, er]

private theorem lhs4000a_0 (i : S4000x256.Idx) (q : dot_S4000x64_S64x256_S4000x256_1_0_0_1_n_n.contr.Idx) :
    (dot_S4000x64_S64x256_S4000x256_1_0_0_1_n_n.lhsIdx i q 0).val = (i 0).val := by
  unfold DotDims.lhsIdx
  rw [dif_neg (show ¬(0 : Fin S4000x64.rank) ∈ dot_S4000x64_S64x256_S4000x256_1_0_0_1_n_n.lhsBatch by decide), dif_pos (show (0 : Fin S4000x64.rank) ∈ dot_S4000x64_S64x256_S4000x256_1_0_0_1_n_n.lhsNonContracting by decide)]
  rfl
private theorem lhs4000a_1 (i : S4000x256.Idx) (q : dot_S4000x64_S64x256_S4000x256_1_0_0_1_n_n.contr.Idx) :
    (dot_S4000x64_S64x256_S4000x256_1_0_0_1_n_n.lhsIdx i q 1).val = (q ⟨0, by decide⟩).val :=
  dot_S4000x64_S64x256_S4000x256_1_0_0_1_n_n.lhsIdx_val_of_single rfl i q
private theorem rhs4000a_0 (i : S4000x256.Idx) (q : dot_S4000x64_S64x256_S4000x256_1_0_0_1_n_n.contr.Idx) :
    (dot_S4000x64_S64x256_S4000x256_1_0_0_1_n_n.rhsIdx i q 0).val = (q ⟨0, by decide⟩).val :=
  dot_S4000x64_S64x256_S4000x256_1_0_0_1_n_n.rhsIdx_val_of_single rfl i q
private theorem rhs4000a_1 (i : S4000x256.Idx) (q : dot_S4000x64_S64x256_S4000x256_1_0_0_1_n_n.contr.Idx) :
    (dot_S4000x64_S64x256_S4000x256_1_0_0_1_n_n.rhsIdx i q 1).val = (i 1).val := by
  unfold DotDims.rhsIdx
  rw [dif_neg (show ¬(1 : Fin S64x256.rank) ∈ dot_S4000x64_S64x256_S4000x256_1_0_0_1_n_n.rhsBatch by decide), dif_pos (show (1 : Fin S64x256.rank) ∈ dot_S4000x64_S64x256_S4000x256_1_0_0_1_n_n.rhsNonContracting by decide)]
  rfl

/-- A 4000 × 64 block times a 64 × 256 block, accumulated into the zero block, read at (r, j): the sum over the
    contracted coordinate of the products of the two entries. -/
private theorem matmul4000a_apply (A : FVec Ideal S4000x64 .bf16) (B : FVec Ideal S64x256 .bf16) (r : Fin 4000) (j : Fin 256) :
    matmul dot_S4000x64_S64x256_S4000x256_1_0_0_1_n_n none A B (constant S4000x256 .f32 0x00000000#32) (ix2 r j)
      = ∑ k : Fin 64, A (ix2 r k) * B (ix2 k j) := by
  simp only [matmul]
  rw [Ideal.matmul_constant_zero_apply, ← Equiv.sum_comp (contrEquiv1 dot_S4000x64_S64x256_S4000x256_1_0_0_1_n_n 64 rfl rfl).symm]
  refine Finset.sum_congr rfl fun k _ => ?_
  have hk := contrEquiv1_symm_val dot_S4000x64_S64x256_S4000x256_1_0_0_1_n_n 64 rfl rfl k
  have el : dot_S4000x64_S64x256_S4000x256_1_0_0_1_n_n.lhsIdx (ix2 r j) ((contrEquiv1 dot_S4000x64_S64x256_S4000x256_1_0_0_1_n_n 64 rfl rfl).symm k) = ix2 r k := funext fun a => Fin.ext (by
    match a with
    | ⟨0, _⟩ => exact lhs4000a_0 _ _
    | ⟨1, _⟩ => exact (lhs4000a_1 _ _).trans hk)
  have er : dot_S4000x64_S64x256_S4000x256_1_0_0_1_n_n.rhsIdx (ix2 r j) ((contrEquiv1 dot_S4000x64_S64x256_S4000x256_1_0_0_1_n_n 64 rfl rfl).symm k) = ix2 k j := funext fun a => Fin.ext (by
    match a with
    | ⟨0, _⟩ => exact (rhs4000a_0 _ _).trans hk
    | ⟨1, _⟩ => exact rhs4000a_1 _ _)
  rw [el, er]

private theorem lhs4000b_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
private theorem lhs4000b_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
private theorem rhs4000b_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
private theorem rhs4000b_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000 × 256 block times a 256 × 256 block, accumulated into the zero block, read at (r, j): the sum over the
    contracted coordinate of the products of the two entries. -/
private theorem matmul4000b_apply (A : FVec Ideal S4000x256 .bf16) (B : FVec Ideal S256x256 .bf16) (r : Fin 4000) (j : Fin 256) :
    matmul dot_S4000x256_S256x256_S4000x256_1_0_0_1_n_n none A B (constant S4000x256 .f32 0x00000000#32) (ix2 r j)
      = ∑ k : Fin 256, A (ix2 r k) * B (ix2 k j) := by
  simp only [matmul]
  rw [Ideal.matmul_constant_zero_apply, ← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 r j) ((contrEquiv1 dot_S4000x256_S256x256_S4000x256_1_0_0_1_n_n 256 rfl rfl).symm k) = ix2 r k := funext fun a => Fin.ext (by
    match a with
    | ⟨0, _⟩ => exact lhs4000b_0 _ _
    | ⟨1, _⟩ => exact (lhs4000b_1 _ _).trans hk)
  have er : dot_S4000x256_S256x256_S4000x256_1_0_0_1_n_n.rhsIdx (ix2 r j) ((contrEquiv1 dot_S4000x256_S256x256_S4000x256_1_0_0_1_n_n 256 rfl rfl).symm k) = ix2 k j := funext fun a => Fin.ext (by
    match a with
    | ⟨0, _⟩ => exact (rhs4000b_0 _ _).trans hk
    | ⟨1, _⟩ => exact rhs4000b_1 _ _)
  rw [el, er]

/-! ## The other operations that move entries -/

/-- A sum along the rows' 256 entries of a 2000 × 256 block, read at row r: the finite sum of that row's entries. -/
private theorem rowsum2000_apply (src : FVec Ideal S2000x256 .f32) (h : S2000x256.Reduces [1] S2000)
    (hφ : FTy.f32 = FTy.f32 ∨ FTy.f32 = FTy.bf16) (hacc : (0x00000000#32 : BitVec 32) = 0x00000000#32) (r : Fin 2000) :
    multiReduction .add [1] S2000 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- A reciprocal square root of a block acts entry by entry. -/
private theorem rsqrt_apply {s : Shape} {φ : FTy} (v : FVec Ideal s φ) (i : s.Idx) : rsqrt v i = Ideal.rsqrt (v i) := rfl

/-- The first column of a 4000 × 65 block, kept as a 4000 × 1 column, read at (r, u): the block at (r, 0). -/
private theorem slice_col0_apply (X : FVec Ideal S4000x65 .f32) (h : S4000x65.Slices ![0, 0] S4000x1) (r : Fin 4000) (u : Fin 1) :
    extractStridedSlice S4000x1 ![0, 0] X h (ix2 r u) = X (ix2 r (0 : Fin 65)) :=
  extractStridedSlice_apply _ X h _ _ (fun ax => by
    match ax with
    | ⟨0, _⟩ => exact (Nat.zero_add _).symm
    | ⟨1, _⟩ =>
      have hu : u.val = 0 := by omega
      show (0 : ℕ) = 0 + u.val
      rw [hu])

/-- Columns 1 to 64 of a 4000 × 65 block, read at (r, f): the block at (r, f + 1). -/
private theorem slice_raw_apply (X : FVec Ideal S4000x65 .f32) (h : S4000x65.Slices ![0, 1] S4000x64) (r : Fin 4000) (f : Fin 64) :
    extractStridedSlice S4000x64 ![0, 1] X h (ix2 r f) = X (ix2 r (raw f)) :=
  extractStridedSlice_apply _ X h _ _ (fun ax => by
    match ax with
    | ⟨0, _⟩ => exact (Nat.zero_add _).symm
    | ⟨1, _⟩ => exact Nat.add_comm _ _)

/-! ## The two stored values at (r, j) -/

/-- What the edge kernel stores at row r, channel j of a 4000-row block is the specification's folded-order row function of that row of the feature block and of the whole weight blocks. -/
theorem edge_payload (x0 : Vec Ideal S4000x65 .f32) (x1 : Vec Ideal S64x256 .bf16) (x2 : Vec Ideal S1x256 .f32) (x3 : Vec Ideal S256x256 .bf16) (x4 x5 : Vec Ideal S1x256 .f32) (r : Fin 4000) (j : Fin 256) :
    Gen.k0_pay1 (F := Ideal) x0 x1 x2 x3 x4 x5 (ix2 r j)
      = edgeKF (x0 (ix2 r (0 : Fin 65))) (fun f => x0 (ix2 r (raw f))) (fun f l => x1 (ix2 f l)) (fun l => x2 (ix2 (0 : Fin 1) l))
          (fun l j' => x3 (ix2 l j')) (fun j' => x4 (ix2 (0 : Fin 1) j')) (fun j' => x5 (ix2 (0 : Fin 1) j')) j := by
  unfold Gen.k0_pay1
  -- every operation read at its index: the gate column at (r, 0), the two products as sums, the rows of biases at j
  simp only [addf_apply, mulf_apply, maximumf_apply, minimumf_apply, truncf_apply, broadcast_apply,
    shapeCast_self, matmul4000a_apply, matmul4000b_apply, broadcastTo_1b_ab_apply, ColumnBroadcast.broadcastTo_a1_ab_apply,
    slice_col0_apply, slice_raw_apply]
  -- what is left is the folded-order row function, written out
  unfold edgeKF hidF gateF
  rfl

/-- What the node kernel stores at row r, channel j of a 2000-row block is the specification's node row function of the row x0(r,·) + x1(r,·) and of the whole weight blocks. -/
theorem node_payload (x0 x1 : Vec Ideal S2000x256 .f32) (x2 : Vec Ideal S256x256 .bf16) (x3 x4 x5 : Vec Ideal S1x256 .f32) (x6 : Vec Ideal S256x256 .bf16) (x7 : Vec Ideal S1x256 .f32) (r : Fin 2000) (j : Fin 256) :
    Gen.k1_pay1 (F := Ideal) (Gen.k1_pay2 (F := Ideal) x0 x1 x2 x3 x4 x5) x6 x7 (ix2 r j)
      = nodeF (fun k => x0 (ix2 r k) + x1 (ix2 r k)) (fun k n => x2 (ix2 k n)) (fun n => x3 (ix2 (0 : Fin 1) n)) (fun n => x4 (ix2 (0 : Fin 1) n))
          (fun n => x5 (ix2 (0 : Fin 1) n)) (fun k n => x6 (ix2 k n)) (fun n => x7 (ix2 (0 : Fin 1) n)) j := by
  unfold Gen.k1_pay1 Gen.k1_pay2
  -- the pointwise operations, the products and the repeated rows and columns, read at their indices; this exposes the
  -- outer row sums (of the affine row, and of the squared deviations) at row r
  simp only [addf_apply, mulf_apply, subf_apply, divf_apply, maximumf_apply, truncf_apply, broadcast_apply, rsqrt_apply,
    shapeCast_self, matmul2000_apply, broadcastTo_1b_ab_apply, ColumnBroadcast.broadcastTo_a1_ab_apply,
    ColumnCasts.shapeCast_a_a1_apply]
  rw [rowsum2000_apply]
  simp only [addf_apply, mulf_apply, subf_apply, divf_apply, maximumf_apply, truncf_apply, broadcast_apply, rsqrt_apply,
    shapeCast_self, matmul2000_apply, broadcastTo_1b_ab_apply, ColumnBroadcast.broadcastTo_a1_ab_apply,
    ColumnCasts.shapeCast_a_a1_apply]
  rw [rowsum2000_apply]
  simp only [addf_apply, mulf_apply, subf_apply, divf_apply, maximumf_apply, truncf_apply, broadcast_apply, rsqrt_apply,
    shapeCast_self, matmul2000_apply, broadcastTo_1b_ab_apply, ColumnBroadcast.broadcastTo_a1_ab_apply,
    ColumnCasts.shapeCast_a_a1_apply]
  -- the mean inside the squared deviations is a row sum once more
  rw [rowsum2000_apply]
  simp only [addf_apply, mulf_apply, subf_apply, divf_apply, maximumf_apply, truncf_apply, broadcast_apply, rsqrt_apply,
    shapeCast_self, matmul2000_apply, broadcastTo_1b_ab_apply, ColumnBroadcast.broadcastTo_a1_ab_apply,
    ColumnCasts.shapeCast_a_a1_apply]
  -- what is left is the node row function, written out
  unfold nodeF nodeAct nodeRs nodeMu nodeH
  rfl

end Cert.KernelIdeal.Payload
end
-- ==== Proof.RefValue.lean ====
import proofs.«155204_j84877143703601_2_alg».proof.Proof.Gen.ReferenceIdeal.Read
import proofs.«155204_j84877143703601_2_alg».proof.Proof.Spec

noncomputable section
namespace Cert.ReferenceIdeal.RefValue
open Cert.ReferenceIdeal Cert.ReferenceIdeal.Read Idealize.ShloMosaic Idealize.ShloMosaic.ValueIdx Cert.Gnn

section Edge

variable (x2 : (⟨S800000x65, .f32⟩ : BufTy).Contents (Elt Ideal)) (x3 : (⟨S256x64, .f32⟩ : BufTy).Contents (Elt Ideal)) (x4 : (⟨S256, .f32⟩ : BufTy).Contents (Elt Ideal))

/-- Stage %8 at edge r and unit l is the hidden layer of edge r's raw features. -/
private theorem hid_at (r : Fin 800000) (l : Fin 256) :
    val_main_v8 (F := Ideal) x2 x3 x4 (ix2 r l)
      = hidF (fun f => x2 (ix2 r (raw f))) (fun f l => x3 (ix2 l f)) (fun l => x4 (ix1 l)) l := by
  have e1 : ∀ k : Fin 64, idx_main_v2 (lidx_main_v4 (ix2 r l) k) = ix2 r (raw k) := fun k =>
    funext fun a => Fin.ext (by match a with | ⟨0, _⟩ => rfl | ⟨1, _⟩ => exact Nat.add_comm 1 k.val)
  have e2 : ∀ k : Fin 64, idx_main_v3 (ridx_main_v4 (ix2 r l) k) = ix2 l k := fun k =>
    funext fun a => Fin.ext (by match a with | ⟨0, _⟩ => rfl | ⟨1, _⟩ => rfl)
  have e3 : idx_main_v5 (idx_main_v6 (ix2 r l)) = ix1 l :=
    funext fun a => Fin.ext (by match a with | ⟨0, _⟩ => rfl)
  rw [val_main_v8_apply, val_main_v7_apply, val_main_v4_apply, val_main_v6_apply, val_main_v5_apply,
    val_main_call1_v0_apply, val_main_call1_cst_apply]
  simp only [val_main_v2_apply, val_main_v3_apply, e1, e2, e3]
  rfl

/-- Stage %15 at edge r is the gate of edge r's polarity. -/
private theorem gate_at (r : Fin 800000) :
    val_main_v15 (F := Ideal) x2 (ix2 r (0 : Fin 1)) = gateF (x2 (ix2 r (0 : Fin 65))) := by
  have e1 : idx_main_v0 (ix2 r (0 : Fin 1)) = ix2 r (0 : Fin 65) :=
    funext fun a => Fin.ext (by match a with | ⟨0, _⟩ => rfl | ⟨1, _⟩ => rfl)
  rw [val_main_v15_apply, val_main_v1_apply, val_main_call0_v4_apply, val_main_call0_v3_apply, val_main_cst_0_apply,
    val_main_call0_v2_apply, val_main_call0_v1_apply, val_main_call0_v0_apply, val_main_cst_apply, val_main_v0_apply,
    val_main_v14_apply, val_main_cst_1_apply, e1]
  rfl

variable (x5 : (⟨S256x256, .f32⟩ : BufTy).Contents (Elt Ideal)) (x6 : (⟨S256, .f32⟩ : BufTy).Contents (Elt Ideal))

/-- Stage %17 at edge r and unit k: the second affine map of the hidden layer, times the gate. -/
private theorem gated_at (r : Fin 800000) (k : Fin 256) :
    val_main_v17 (F := Ideal) x2 x3 x4 x5 x6 (ix2 r k)
      = ((∑ l : Fin 256, hidF (fun f => x2 (ix2 r (raw f))) (fun f l => x3 (ix2 l f)) (fun l => x4 (ix1 l)) l * x5 (ix2 k l))
          + x6 (ix1 k)) * gateF (x2 (ix2 r (0 : Fin 65))) := by
  have e1 : ∀ l : Fin 256, lidx_main_v10 (ix2 r k) l = ix2 r l := fun l =>
    funext fun a => Fin.ext (by match a with | ⟨0, _⟩ => rfl | ⟨1, _⟩ => rfl)
  have e2 : ∀ l : Fin 256, idx_main_v9 (ridx_main_v10 (ix2 r k) l) = ix2 k l := fun l =>
    funext fun a => Fin.ext (by match a with | ⟨0, _⟩ => rfl | ⟨1, _⟩ => rfl)
  have e3 : idx_main_v11 (idx_main_v12 (ix2 r k)) = ix1 k :=
    funext fun a => Fin.ext (by match a with | ⟨0, _⟩ => rfl)
  have e4 : idx_main_v16 (ix2 r k) = ix2 r (0 : Fin 1) :=
    funext fun a => Fin.ext (by match a with | ⟨0, _⟩ => rfl | ⟨1, _⟩ => rfl)
  rw [val_main_v17_apply, val_main_v13_apply, val_main_v10_apply, val_main_v12_apply, val_main_v11_apply,
    val_main_v16_apply, e3, e4, gate_at]
  simp only [val_main_v9_apply, e1, e2, hid_at]
  rfl

end Edge

/-- The edge embedding the reference computes (stage %22, before the gather), at edge r and channel j, is the specification's reference-order row function of edge r's features and the ORIGINAL weights (each transposed weight read through its transpose). -/
theorem edge_ref (x2 : (⟨S800000x65, .f32⟩ : BufTy).Contents (Elt Ideal)) (x3 : (⟨S256x64, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (r : Fin 800000) (j : Fin 256) :
    val_main_v22 (F := Ideal) x2 x3 x4 x5 x6 x7 x8 (ix2 r j)
      = edgeRF (x2 (ix2 r (0 : Fin 65))) (fun f => x2 (ix2 r (raw f))) (fun f l => x3 (ix2 l f)) (fun l => x4 (ix1 l))
          (fun l k => x5 (ix2 k l)) (fun k => x6 (ix1 k)) (fun k j' => x7 (ix2 j' k)) (fun j' => x8 (ix1 j')) j := by
  have e1 : ∀ k : Fin 256, lidx_main_v19 (ix2 r j) k = ix2 r k := fun k =>
    funext fun a => Fin.ext (by match a with | ⟨0, _⟩ => rfl | ⟨1, _⟩ => rfl)
  have e2 : ∀ k : Fin 256, idx_main_v18 (ridx_main_v19 (ix2 r j) k) = ix2 j k := fun k =>
    funext fun a => Fin.ext (by match a with | ⟨0, _⟩ => rfl | ⟨1, _⟩ => rfl)
  have e3 : idx_main_v20 (idx_main_v21 (ix2 r j)) = ix1 j :=
    funext fun a => Fin.ext (by match a with | ⟨0, _⟩ => rfl)
  rw [val_main_v22_apply, val_main_v19_apply, val_main_v21_apply, val_main_v20_apply, e3]
  simp only [val_main_v18_apply, e1, e2, gated_at]
  rfl

section Node

variable (x0 : (⟨S50000x256, .f32⟩ : BufTy).Contents (Elt Ideal)) (x1 : (⟨S2x800000, .i32⟩ : BufTy).Contents (Elt Ideal)) (x2 : (⟨S800000x65, .f32⟩ : BufTy).Contents (Elt Ideal)) (x3 : (⟨S256x64, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 x11 x12 : (⟨S256, .f32⟩ : BufTy).Contents (Elt Ideal)) (x13 : (⟨S256x256, .f32⟩ : BufTy).Contents (Elt Ideal)) (x14 : (⟨S256, .f32⟩ : BufTy).Contents (Elt Ideal))

/-- Stage %44 at node r and unit n is the first affine map of the row x0(r,·) + (stage %38)(r,·). -/
private theorem affine_at (r : Fin 50000) (n : Fin 256) :
    val_main_v44 (F := Ideal) x0 x1 x2 x3 x4 x5 x6 x7 x8 x9 x10 (ix2 r n) = nodeH (fun k => x0 (ix2 r k) + val_main_v38 (F := Ideal) x0 x1 x2 x3 x4 x5 x6 x7 x8 (ix2 r k)) (fun k n => x9 (ix2 n k)) (fun n => x10 (ix1 n)) n := by
  have e1 : ∀ k : Fin 256, lidx_main_v41 (ix2 r n) k = ix2 r k := fun k =>
    funext fun a => Fin.ext (by match a with | ⟨0, _⟩ => rfl | ⟨1, _⟩ => rfl)
  have e2 : ∀ k : Fin 256, idx_main_v40 (ridx_main_v41 (ix2 r n) k) = ix2 n k := fun k =>
    funext fun a => Fin.ext (by match a with | ⟨0, _⟩ => rfl | ⟨1, _⟩ => rfl)
  have e3 : idx_main_v42 (idx_main_v43 (ix2 r n)) = ix1 n :=
    funext fun a => Fin.ext (by match a with | ⟨0, _⟩ => rfl)
  rw [val_main_v44_apply, val_main_v41_apply, val_main_v43_apply, val_main_v42_apply, e3]
  simp only [val_main_v40_apply, val_main_v39_apply, e1, e2]
  rfl

/-- Stage %48 at node r is the mean of that row of stage %44. -/
private theorem mean_at (r : Fin 50000) :
    val_main_v48 (F := Ideal) x0 x1 x2 x3 x4 x5 x6 x7 x8 x9 x10 (ix2 r (0 : Fin 1))
      = nodeMu (nodeH (fun k => x0 (ix2 r k) + val_main_v38 (F := Ideal) x0 x1 x2 x3 x4 x5 x6 x7 x8 (ix2 r k)) (fun k n => x9 (ix2 n k)) (fun n => x10 (ix1 n))) := by
  have e1 : ∀ n : Fin 256, idx_main_v45 (idx_main_v46 (ix2 r (0 : Fin 1))) n = ix2 r n := fun n =>
    funext fun a => Fin.ext (by match a with | ⟨0, _⟩ => rfl | ⟨1, _⟩ => rfl)
  rw [val_main_v48_apply, val_main_v46_apply, val_main_v45_apply, val_main_cst_4_apply, val_main_v47_apply,
    val_main_cst_5_apply]
  simp only [e1, affine_at]
  rw [show (FloatOps.ofBits (F := Ideal) .f32 0x00000000#32) = 0 from Ideal.ofBits_zero_f32, zero_add]
  rfl

/-- Stage %50 at (r, n): the row minus its mean. -/
private theorem centered_at (r : Fin 50000) (n : Fin 256) :
    val_main_v50 (F := Ideal) x0 x1 x2 x3 x4 x5 x6 x7 x8 x9 x10 (ix2 r n)
      = nodeH (fun k => x0 (ix2 r k) + val_main_v38 (F := Ideal) x0 x1 x2 x3 x4 x5 x6 x7 x8 (ix2 r k)) (fun k n => x9 (ix2 n k)) (fun n => x10 (ix1 n)) n - nodeMu (nodeH (fun k => x0 (ix2 r k) + val_main_v38 (F := Ideal) x0 x1 x2 x3 x4 x5 x6 x7 x8 (ix2 r k)) (fun k n => x9 (ix2 n k)) (fun n => x10 (ix1 n))) := by
  have e1 : idx_main_v49 (ix2 r n) = ix2 r (0 : Fin 1) :=
    funext fun a => Fin.ext (by match a with | ⟨0, _⟩ => rfl | ⟨1, _⟩ => rfl)
  rw [val_main_v50_apply, val_main_v49_apply, e1, mean_at, affine_at]
  rfl

/-- Stage %57 at (r, n): the row minus its mean, again. -/
private theorem centered'_at (r : Fin 50000) (n : Fin 256) :
    val_main_v57 (F := Ideal) x0 x1 x2 x3 x4 x5 x6 x7 x8 x9 x10 (ix2 r n)
      = nodeH (fun k => x0 (ix2 r k) + val_main_v38 (F := Ideal) x0 x1 x2 x3 x4 x5 x6 x7 x8 (ix2 r k)) (fun k n => x9 (ix2 n k)) (fun n => x10 (ix1 n)) n - nodeMu (nodeH (fun k => x0 (ix2 r k) + val_main_v38 (F := Ideal) x0 x1 x2 x3 x4 x5 x6 x7 x8 (ix2 r k)) (fun k n => x9 (ix2 n k)) (fun n => x10 (ix1 n))) := by
  have e1 : idx_main_v56 (ix2 r n) = ix2 r (0 : Fin 1) :=
    funext fun a => Fin.ext (by match a with | ⟨0, _⟩ => rfl | ⟨1, _⟩ => rfl)
  rw [val_main_v57_apply, val_main_v56_apply, e1, mean_at, affine_at]
  rfl

/-- Stage %60 at node r is the row's reciprocal standard deviation. -/
private theorem rstd_at (r : Fin 50000) :
    val_main_v60 (F := Ideal) x0 x1 x2 x3 x4 x5 x6 x7 x8 x9 x10 (ix2 r (0 : Fin 1))
      = nodeRs (nodeH (fun k => x0 (ix2 r k) + val_main_v38 (F := Ideal) x0 x1 x2 x3 x4 x5 x6 x7 x8 (ix2 r k)) (fun k n => x9 (ix2 n k)) (fun n => x10 (ix1 n))) := by
  have e1 : ∀ n : Fin 256, idx_main_v52 (idx_main_v53 (ix2 r (0 : Fin 1))) n = ix2 r n := fun n =>
    funext fun a => Fin.ext (by match a with | ⟨0, _⟩ => rfl | ⟨1, _⟩ => rfl)
  rw [val_main_v60_apply, val_main_v59_apply, val_main_v55_apply, val_main_v53_apply, val_main_v52_apply,
    val_main_cst_6_apply, val_main_v54_apply, val_main_cst_7_apply, val_main_v58_apply, val_main_cst_8_apply]
  simp only [e1, val_main_v51_apply, centered_at]
  rw [show (FloatOps.ofBits (F := Ideal) .f32 0x00000000#32) = 0 from Ideal.ofBits_zero_f32, zero_add]
  rfl

/-- Stage %69 at (r, n) is the normalised, scaled, shifted row cut at zero. -/
private theorem act_at (r : Fin 50000) (n : Fin 256) :
    val_main_v69 (F := Ideal) x0 x1 x2 x3 x4 x5 x6 x7 x8 x9 x10 x11 x12 (ix2 r n)
      = nodeAct (nodeH (fun k => x0 (ix2 r k) + val_main_v38 (F := Ideal) x0 x1 x2 x3 x4 x5 x6 x7 x8 (ix2 r k)) (fun k n => x9 (ix2 n k)) (fun n => x10 (ix1 n))) (fun n => x11 (ix1 n)) (fun n => x12 (ix1 n)) n := by
  have e1 : idx_main_v61 (ix2 r n) = ix2 r (0 : Fin 1) :=
    funext fun a => Fin.ext (by match a with | ⟨0, _⟩ => rfl | ⟨1, _⟩ => rfl)
  have e2 : idx_main_v63 (idx_main_v64 (ix2 r n)) = ix1 n :=
    funext fun a => Fin.ext (by match a with | ⟨0, _⟩ => rfl)
  have e3 : idx_main_v66 (idx_main_v67 (ix2 r n)) = ix1 n :=
    funext fun a => Fin.ext (by match a with | ⟨0, _⟩ => rfl)
  rw [val_main_v69_apply, val_main_v68_apply, val_main_v65_apply, val_main_v62_apply, val_main_v61_apply,
    val_main_v64_apply, val_main_v63_apply, val_main_v67_apply, val_main_v66_apply, val_main_call3_v0_apply,
    val_main_call3_cst_apply, e1, e2, e3, rstd_at, centered'_at]
  rfl

end Node

/-- The reference's result (stage %74) at node r and channel j is the specification's node row function of the row x0(r,·) + (stage %38)(r,·) — stage %38 is the scatter-add of the messages and is NOT opened: it stays the term `val_main_v38 …` — and the original node weights. -/
theorem node_ref (x0 : (⟨S50000x256, .f32⟩ : BufTy).Contents (Elt Ideal)) (x1 : (⟨S2x800000, .i32⟩ : BufTy).Contents (Elt Ideal)) (x2 : (⟨S800000x65, .f32⟩ : BufTy).Contents (Elt Ideal)) (x3 : (⟨S256x64, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 x11 x12 : (⟨S256, .f32⟩ : BufTy).Contents (Elt Ideal)) (x13 : (⟨S256x256, .f32⟩ : BufTy).Contents (Elt Ideal)) (x14 : (⟨S256, .f32⟩ : BufTy).Contents (Elt Ideal)) (r : Fin 50000) (j : Fin 256) :
    val_main_v74 (F := Ideal) x0 x1 x2 x3 x4 x5 x6 x7 x8 x9 x10 x11 x12 x13 x14 (ix2 r j)
      = nodeF (fun k => x0 (ix2 r k) + val_main_v38 (F := Ideal) x0 x1 x2 x3 x4 x5 x6 x7 x8 (ix2 r k))
          (fun k n => x9 (ix2 n k)) (fun n => x10 (ix1 n)) (fun n => x11 (ix1 n)) (fun n => x12 (ix1 n))
          (fun k n => x13 (ix2 n k)) (fun n => x14 (ix1 n)) j := by
  have e1 : ∀ n : Fin 256, lidx_main_v71 (ix2 r j) n = ix2 r n := fun n =>
    funext fun a => Fin.ext (by match a with | ⟨0, _⟩ => rfl | ⟨1, _⟩ => rfl)
  have e2 : ∀ n : Fin 256, idx_main_v70 (ridx_main_v71 (ix2 r j) n) = ix2 j n := fun n =>
    funext fun a => Fin.ext (by match a with | ⟨0, _⟩ => rfl | ⟨1, _⟩ => rfl)
  have e3 : idx_main_v72 (idx_main_v73 (ix2 r j)) = ix1 j :=
    funext fun a => Fin.ext (by match a with | ⟨0, _⟩ => rfl)
  rw [val_main_v74_apply, val_main_v71_apply, val_main_v73_apply, val_main_v72_apply, e3]
  simp only [val_main_v70_apply, e1, e2, act_at]
  rfl

end Cert.ReferenceIdeal.RefValue
end
-- ==== Proof.EdgeLaw.lean ====
import proofs.«155204_j84877143703601_2_alg».proof.Proof.Spec
import Idealize.ShloMosaic.PureOps.Ideal.Laws

noncomputable section
namespace Cert.Gnn
open Idealize.ShloMosaic

/-- The coercion of the reals into the extended reals commutes with finite sums. -/
private theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The coercion commutes with the maximum and the minimum. -/
private theorem coe_max' (x y : ℝ) : max (x : EReal) (y : EReal) = ((max x y : ℝ) : EReal) :=
  (EReal.coe_strictMono.monotone.map_max).symm

private theorem coe_min' (x y : ℝ) : min (x : EReal) (y : EReal) = ((min x y : ℝ) : EReal) :=
  (EReal.coe_strictMono.monotone.map_min).symm

/-- The three literals of the edge side are real numbers. -/
private theorem zero32_eq : zero32 = ((0 : ℝ) : EReal) := by
  show Ideal.ofBits .f32 0x00000000#32 = _
  rw [Ideal.ofBits_zero_f32]; rfl

private theorem one32_fin : ∃ y : ℝ, one32 = (y : EReal) := by
  refine ⟨1, ?_⟩
  show Ideal.ofBits .f32 0x3F800000#32 = _
  simp [Ideal.ofBits, Ideal.ieee, -EReal.coe_mul]; norm_num

private theorem c01_fin : ∃ y : ℝ, c01 = (y : EReal) := by
  show ∃ y : ℝ, Ideal.ofBits .f32 0x3C23D70A#32 = (y : EReal)
  unfold Ideal.ofBits Ideal.ieee
  dsimp only
  rw [if_neg (by decide), if_neg (by decide)]
  exact ⟨_, rfl⟩

/-- The gate of a real polarity is real. -/
private theorem gate_fin (a0 : ℝ) : ∃ g : ℝ, gateF (a0 : EReal) = (g : EReal) := by
  obtain ⟨o, ho⟩ := one32_fin
  obtain ⟨c, hc⟩ := c01_fin
  refine ⟨min o (max 0 a0) + c, ?_⟩
  unfold gateF
  rw [ho, hc, zero32_eq, coe_max', coe_min', EReal.coe_add]

/-- The hidden layer of real features, weights and biases is real. -/
private theorem hid_fin (a : Fin 64 → ℝ) (w1 : Fin 64 → Fin 256 → ℝ) (b1 : Fin 256 → ℝ) (l : Fin 256) :
    hidF (fun f => (a f : EReal)) (fun f l => (w1 f l : EReal)) (fun l => (b1 l : EReal)) l
      = ((max ((∑ f : Fin 64, a f * w1 f l) + b1 l) 0 : ℝ) : EReal) := by
  unfold hidF
  simp only [zero32_eq, ← EReal.coe_mul, coe_sum, ← EReal.coe_add, coe_max']

/-- The identity on the reals: the scalar g moves out of the sum over k, and the sums over k and l exchange. -/
private theorem fold_real (g : ℝ) (h : Fin 256 → ℝ) (w2 : Fin 256 → Fin 256 → ℝ) (b2 : Fin 256 → ℝ)
    (w3 : Fin 256 → Fin 256 → ℝ) (j : Fin 256) :
    g * ((∑ l : Fin 256, h l * ∑ k : Fin 256, w2 l k * w3 k j) + ∑ k : Fin 256, b2 k * w3 k j)
      = ∑ k : Fin 256, ((∑ l : Fin 256, h l * w2 l k) + b2 k) * g * w3 k j := by
  have e1 : (∑ l : Fin 256, h l * ∑ k : Fin 256, w2 l k * w3 k j)
      = ∑ k : Fin 256, (∑ l : Fin 256, h l * w2 l k) * w3 k j := by
    calc (∑ l : Fin 256, h l * ∑ k : Fin 256, w2 l k * w3 k j)
        = ∑ l : Fin 256, ∑ k : Fin 256, h l * w2 l k * w3 k j := by
          refine Finset.sum_congr rfl fun l _ => ?_
          rw [Finset.mul_sum]
          exact Finset.sum_congr rfl fun k _ => by ring
      _ = ∑ k : Fin 256, ∑ l : Fin 256, h l * w2 l k * w3 k j := Finset.sum_comm
      _ = ∑ k : Fin 256, (∑ l : Fin 256, h l * w2 l k) * w3 k j := by
          refine Finset.sum_congr rfl fun k _ => ?_
          rw [Finset.sum_mul]
  rw [e1, ← Finset.sum_add_distrib, Finset.mul_sum]
  exact Finset.sum_congr rfl fun k _ => by ring

/-- On real features and weights the gate, one scalar per row, moves out of the sum over k, and the sums over k and l exchange: the folded order computes the reference order's embedding. -/
theorem edge_fold (a0 : EReal) (a : Fin 64 → EReal) (w1 : Fin 64 → Fin 256 → EReal) (b1 : Fin 256 → EReal)
    (w2 : Fin 256 → Fin 256 → EReal) (b2 : Fin 256 → EReal) (w3 : Fin 256 → Fin 256 → EReal) (b3 : Fin 256 → EReal) (j : Fin 256)
    (ha0 : IsFin a0) (ha : ∀ f, IsFin (a f)) (hw1 : ∀ f l, IsFin (w1 f l)) (hb1 : ∀ l, IsFin (b1 l))
    (hw2 : ∀ l k, IsFin (w2 l k)) (hb2 : ∀ k, IsFin (b2 k)) (hw3 : ∀ k j', IsFin (w3 k j')) :
    edgeKF a0 a w1 b1 (fun l j' => ∑ k : Fin 256, w2 l k * w3 k j') (fun j' => ∑ k : Fin 256, b2 k * w3 k j') b3 j
      = edgeRF a0 a w1 b1 w2 b2 w3 b3 j := by
  obtain ⟨a0', rfl⟩ := ha0
  choose a' ha' using ha
  obtain rfl : a = fun f => (a' f : EReal) := funext ha'
  choose w1' hw1' using hw1
  obtain rfl : w1 = fun f l => (w1' f l : EReal) := funext fun f => funext (hw1' f)
  choose b1' hb1' using hb1
  obtain rfl : b1 = fun l => (b1' l : EReal) := funext hb1'
  choose w2' hw2' using hw2
  obtain rfl : w2 = fun l k => (w2' l k : EReal) := funext fun l => funext (hw2' l)
  choose b2' hb2' using hb2
  obtain rfl : b2 = fun k => (b2' k : EReal) := funext hb2'
  choose w3' hw3' using hw3
  obtain rfl : w3 = fun k j' => (w3' k j' : EReal) := funext fun k => funext (hw3' k)
  obtain ⟨g, hg⟩ := gate_fin a0'
  unfold edgeKF edgeRF
  refine congrArg (· + b3 j) ?_
  simp only [hg, hid_fin, ← EReal.coe_mul, coe_sum, ← EReal.coe_add]
  exact congrArg _ (fold_real g _ w2' b2' w3' j)

end Cert.Gnn
end
-- ==== Proof.MidK.lean ====
/-
  The aggregated messages as ONE function of the node features x, the edge index array ei and the edge embeddings emb,
  in the kernel program's spelling: message e is max (x[src e] + emb e) 0, with a negative source index wrapped once by
  the number of nodes, and node n receives the sum of the messages whose destination is n. The function is only named
  here: both programs apply it, and nothing about the gather or the scatter-add is ever opened.
-/
import proofs.«155204_j84877143703601_2_alg».proof.Proof.Gen.KernelIdeal

noncomputable section

namespace Cert.KernelIdeal.Mid

open Cert.KernelIdeal Cert.KernelIdeal.Facts₀ Cert.KernelIdeal.Facts Idealize.ShloMosaic

variable {F : FTy → Type} [FloatOps F]

/-- The messages' scatter-add, as the kernel program's host operations between its two regions compute it. -/
def midK (x : (⟨S50000x256, .f32⟩ : BufTy).Contents (Elt F)) (ei : (⟨S2x800000, .i32⟩ : BufTy).Contents (Elt F))
    (emb : (⟨S800000x256, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 (shapeCast _ (extractStridedSlice S1x800000 ![1, 0] ei slices_S2x800000_S1x800000_1_0) shapeCasts_S1x800000_S800000))
    (maximumf (addf (Host.gather gather_S50000x256_S800000x1_S800000x256_1_0_n_n_0_1_1256 x
        (broadcastInDim S800000x1 ![0] bcast_S800000_S800000x1_0
          (select (cmpi .slt (shapeCast _ (extractStridedSlice S1x800000 ![0, 0] ei slices_S2x800000_S1x800000_0_0) shapeCasts_S1x800000_S800000) (broadcastInDim S800000 ![] bcast_S_S800000 (constantI S_ 32 0#32)))
            (addi (shapeCast _ (extractStridedSlice S1x800000 ![0, 0] ei slices_S2x800000_S1x800000_0_0) shapeCasts_S1x800000_S800000) (broadcastInDim S800000 ![] bcast_S_S800000 (constantI S_ 32 50000#32)))
            (shapeCast _ (extractStridedSlice S1x800000 ![0, 0] ei slices_S2x800000_S1x800000_0_0) shapeCasts_S1x800000_S800000)))) emb)
      (broadcastInDim S800000x256 ![] bcast_S_S800000x256 (constant S_ .f32 0x00000000#32)))

end Cert.KernelIdeal.Mid

end
-- ==== Proof.MidR.lean ====
/-
  The reference's scatter-add stage is the same function of the node features, the edge index array and the edge
  embeddings as the kernel program's: the two programs print the same gather, wrap, maximum and scatter-add, so the
  two spellings agree by unfolding the reference's stage names.
-/
import proofs.«155204_j84877143703601_2_alg».proof.Proof.MidK
import proofs.«155204_j84877143703601_2_alg».proof.Proof.Gen.ReferenceIdeal.Read

set_option maxRecDepth 16384

noncomputable section

namespace Cert.KernelIdeal.Mid

open Idealize.ShloMosaic Cert.ReferenceIdeal.Read

variable {F : FTy → Type} [FloatOps F]

/-- The reference's scatter-add stage (%38) is the kernel program's message function of the features, the index array
    and the reference's edge embedding stage (%22). -/
theorem ref_scatter (x0 : (⟨Cert.ReferenceIdeal.S50000x256, .f32⟩ : BufTy).Contents (Elt F)) (x1 : (⟨Cert.ReferenceIdeal.S2x800000, .i32⟩ : BufTy).Contents (Elt F))
    (x2 : (⟨Cert.ReferenceIdeal.S800000x65, .f32⟩ : BufTy).Contents (Elt F)) (x3 : (⟨Cert.ReferenceIdeal.S256x64, .f32⟩ : BufTy).Contents (Elt F))
    (x4 : (⟨Cert.ReferenceIdeal.S256, .f32⟩ : BufTy).Contents (Elt F)) (x5 : (⟨Cert.ReferenceIdeal.S256x256, .f32⟩ : BufTy).Contents (Elt F))
    (x6 : (⟨Cert.ReferenceIdeal.S256, .f32⟩ : BufTy).Contents (Elt F)) (x7 : (⟨Cert.ReferenceIdeal.S256x256, .f32⟩ : BufTy).Contents (Elt F))
    (x8 : (⟨Cert.ReferenceIdeal.S256, .f32⟩ : BufTy).Contents (Elt F)) :
    val_main_v38 (F := F) x0 x1 x2 x3 x4 x5 x6 x7 x8 = midK x0 x1 (val_main_v22 (F := F) x2 x3 x4 x5 x6 x7 x8) := rfl

end Cert.KernelIdeal.Mid

end
-- ==== Proof.Bridge.lean ====
/-
  The bridge between the two programs at the exact extended-real reading.

  Kernel side. The result buffer ends at the node region's output array, which is the node row function, row by row,
  of the features, the aggregated messages and the six node weights as the region finds them. The aggregated messages
  are the message function (gather, add, maximum with zero, scatter-add) of the features, the index array and the edge
  region's output array; that array is the folded-order edge row function of the edge features and of the weights the
  host folded before the region: wc = w2ᵀ·w3ᵀ and bc = b2·w3ᵀ as plain sums.
  Reference side. The result is the same node row function of the same features and weights and of the reference's own
  scatter-add stage, which is the same message function of the features, the index array and the reference's edge
  embedding stage, the reference-order edge row function.
  The one law: on real edge features and weights (the precondition) the folded order equals the reference order, so
  the two edge embeddings are one array, hence the aggregated messages are one array, hence the results are equal.
-/
import proofs.«155204_j84877143703601_2_alg».proof.Proof.KernelRun
import proofs.«155204_j84877143703601_2_alg».proof.Proof.NodeArray
import proofs.«155204_j84877143703601_2_alg».proof.Proof.EdgeArray
import proofs.«155204_j84877143703601_2_alg».proof.Proof.KernelPayload
import proofs.«155204_j84877143703601_2_alg».proof.Proof.RefValue
import proofs.«155204_j84877143703601_2_alg».proof.Proof.EdgeLaw
import proofs.«155204_j84877143703601_2_alg».proof.Proof.MidR

set_option maxRecDepth 16384

noncomputable section

namespace Cert.Bridge

open Cert.KernelIdeal Cert.KernelIdeal.Gen Idealize.ShloMosaic Idealize.ShloMosaic.TcCoe Idealize.ShloMosaic.ValueIdx
open Idealize.SL.Sem Cert.Gnn
open Cert.ReferenceIdeal.Read (val_main_v22 val_main_v38 val_main_v74)

variable (m : (ℓ : Loc nD τ sig) → Buf (Elt Ideal) ℓ) (ρ : Dev nD → PrngReg) (c : Dev nD)

/-- The launch arrays of the fifteen arguments, as functions of their indices. -/
abbrev A0 : S50000x256.Idx → EReal := m ((c : Thread nD τ).loc main_arg0)
abbrev A1 : (⟨S2x800000, .i32⟩ : BufTy).Contents (Elt Ideal) := m ((c : Thread nD τ).loc main_arg1)
abbrev A2 : S800000x65.Idx → EReal := m ((c : Thread nD τ).loc main_arg2)
abbrev A3 : S256x64.Idx → EReal := m ((c : Thread nD τ).loc main_arg3)
abbrev A4 : S256.Idx → EReal := m ((c : Thread nD τ).loc main_arg4)
abbrev A5 : S256x256.Idx → EReal := m ((c : Thread nD τ).loc main_arg5)
abbrev A6 : S256.Idx → EReal := m ((c : Thread nD τ).loc main_arg6)
abbrev A7 : S256x256.Idx → EReal := m ((c : Thread nD τ).loc main_arg7)
abbrev A8 : S256.Idx → EReal := m ((c : Thread nD τ).loc main_arg8)
abbrev A9 : S256x256.Idx → EReal := m ((c : Thread nD τ).loc main_arg9)
abbrev A10 : S256.Idx → EReal := m ((c : Thread nD τ).loc main_arg10)
abbrev A11 : S256.Idx → EReal := m ((c : Thread nD τ).loc main_arg11)
abbrev A12 : S256.Idx → EReal := m ((c : Thread nD τ).loc main_arg12)
abbrev A13 : S256x256.Idx → EReal := m ((c : Thread nD τ).loc main_arg13)
abbrev A14 : S256.Idx → EReal := m ((c : Thread nD τ).loc main_arg14)

/-- The edge region's output array at its exit. -/
abbrev E2 : S800000x256.Idx → EReal := W2 m ρ c (Proc.devRef .tc main_v23)

/-- What the host operations leave in the buffers the two regions read, in terms of the launch arrays. -/
structure HostFacts : Prop where
  r0_arg2 : EdgeArr.eA (V1 m ρ) c = A2 m c
  r0_v5 : ∀ (f : Fin 64) (l : Fin 256), EdgeArr.eW1 (V1 m ρ) c (ix2 f l) = A3 m c (ix2 l f)
  r0_v17 : ∀ l : Fin 256, EdgeArr.eB1 (V1 m ρ) c (ix2 (0 : Fin 1) l) = A4 m c (ix1 l)
  r0_v9 : ∀ l j : Fin 256, EdgeArr.eWc (V1 m ρ) c (ix2 l j) = ∑ k : Fin 256, A5 m c (ix2 k l) * A7 m c (ix2 j k)
  r0_v12 : ∀ j : Fin 256, EdgeArr.eBc (V1 m ρ) c (ix2 (0 : Fin 1) j) = ∑ k : Fin 256, A6 m c (ix1 k) * A7 m c (ix2 j k)
  r0_v18 : ∀ j : Fin 256, EdgeArr.eB3 (V1 m ρ) c (ix2 (0 : Fin 1) j) = A8 m c (ix1 j)
  r1_arg0 : Arrays.nX (V5 m ρ) c = A0 m c
  r1_v35 : Arrays.nA (V5 m ρ) c = Mid.midK (F := Ideal) (A0 m c) (A1 m c) (E2 m ρ c)
  r1_v14 : ∀ k n : Fin 256, Arrays.nW1 (V5 m ρ) c (ix2 k n) = A9 m c (ix2 n k)
  r1_v19 : ∀ n : Fin 256, Arrays.nB1 (V5 m ρ) c (ix2 (0 : Fin 1) n) = A10 m c (ix1 n)
  r1_v21 : ∀ n : Fin 256, Arrays.nG (V5 m ρ) c (ix2 (0 : Fin 1) n) = A11 m c (ix1 n)
  r1_v22 : ∀ n : Fin 256, Arrays.nBt (V5 m ρ) c (ix2 (0 : Fin 1) n) = A12 m c (ix1 n)
  r1_v16 : ∀ k n : Fin 256, Arrays.nW2 (V5 m ρ) c (ix2 k n) = A13 m c (ix2 n k)
  r1_v20 : ∀ n : Fin 256, Arrays.nB2 (V5 m ρ) c (ix2 (0 : Fin 1) n) = A14 m c (ix1 n)

/-- Every entry of the edge features and of the six edge-side weights and biases is a real number. -/
structure EdgeReal : Prop where
  h2 : ∀ i, IsFin (A2 m c i)
  h3 : ∀ i, IsFin (A3 m c i)
  h4 : ∀ i, IsFin (A4 m c i)
  h5 : ∀ i, IsFin (A5 m c i)
  h6 : ∀ i, IsFin (A6 m c i)
  h7 : ∀ i, IsFin (A7 m c i)

variable {m ρ c}

/-- The edge region's output array is the reference's edge embedding stage of the launch arrays. -/
theorem edge_out (H : HostFacts m ρ c) (R : EdgeReal m c) :
    E2 m ρ c = val_main_v22 (F := Ideal) (A2 m c) (A3 m c) (A4 m c) (A5 m c) (A6 m c) (A7 m c) (A8 m c) := by
  have e1 : E2 m ρ c = EdgeArr.edgeG (V1 m ρ) c :=
    (W2_arr m ρ c 6).trans (EdgeArr.edge_final (V1 m ρ) Cert.KernelIdeal.Payload.edge_payload c)
  rw [e1]
  funext i
  obtain ⟨r, j, rfl⟩ : ∃ (r : Fin 800000) (j : Fin 256), i = ix2 r j := ⟨i 0, i 1, eq_ix2 i⟩
  refine Eq.trans ?_ (Cert.ReferenceIdeal.RefValue.edge_ref (A2 m c) (A3 m c) (A4 m c) (A5 m c) (A6 m c) (A7 m c) (A8 m c) r j).symm
  refine Eq.trans ?_ (edge_fold (A2 m c (ix2 r (0 : Fin 65))) (fun f => A2 m c (ix2 r (raw f))) (fun f l => A3 m c (ix2 l f)) (fun l => A4 m c (ix1 l))
    (fun l k => A5 m c (ix2 k l)) (fun k => A6 m c (ix1 k)) (fun k j' => A7 m c (ix2 j' k)) (fun j' => A8 m c (ix1 j')) j
    (R.h2 _) (fun f => R.h2 _) (fun f l => R.h3 _) (fun l => R.h4 _) (fun l k => R.h5 _) (fun k => R.h6 _) (fun k j' => R.h7 _))
  show EdgeArr.edgeG (V1 m ρ) c (ix2 r j) = _
  unfold EdgeArr.edgeG
  exact EdgeArr.edgeKF_congr j (congrFun H.r0_arg2 _) (fun f => congrFun H.r0_arg2 _) (fun f l => H.r0_v5 f l) (fun l => H.r0_v17 l)
    (fun l n => H.r0_v9 l n) (fun n => H.r0_v12 n) (fun n => H.r0_v18 n)

/-- The aggregated messages the node region reads are the reference's scatter-add stage of the launch arrays. -/
theorem aggr_eq (H : HostFacts m ρ c) (R : EdgeReal m c) :
    Arrays.nA (V5 m ρ) c
      = val_main_v38 (F := Ideal) (A0 m c) (A1 m c) (A2 m c) (A3 m c) (A4 m c) (A5 m c) (A6 m c) (A7 m c) (A8 m c) := by
  rw [H.r1_v35, edge_out H R]
  exact (Mid.ref_scatter (F := Ideal) (A0 m c) (A1 m c) (A2 m c) (A3 m c) (A4 m c) (A5 m c) (A6 m c) (A7 m c) (A8 m c)).symm

/-- The kernel program's result array is the reference's result stage of the launch arrays. -/
theorem result_eq (H : HostFacts m ρ c) (R : EdgeReal m c) :
    (W6 m ρ c (Proc.devRef .tc main_v36) : S50000x256.Idx → EReal)
      = val_main_v74 (F := Ideal) (A0 m c) (A1 m c) (A2 m c) (A3 m c) (A4 m c) (A5 m c) (A6 m c) (A7 m c) (A8 m c) (A9 m c) (A10 m c) (A11 m c)
          (A12 m c) (A13 m c) (A14 m c) := by
  have e1 : (W6 m ρ c (Proc.devRef .tc main_v36) : S50000x256.Idx → EReal) = Arrays.nodeG (V5 m ρ) c :=
    (Cert.KernelIdeal.RunValue.W6_result m ρ c).trans (Arrays.node_final (V5 m ρ) Cert.KernelIdeal.Payload.node_payload c)
  rw [e1]
  funext i
  obtain ⟨r, j, rfl⟩ : ∃ (r : Fin 50000) (j : Fin 256), i = ix2 r j := ⟨i 0, i 1, eq_ix2 i⟩
  refine Eq.trans ?_ (Cert.ReferenceIdeal.RefValue.node_ref (A0 m c) (A1 m c) (A2 m c) (A3 m c) (A4 m c) (A5 m c) (A6 m c) (A7 m c) (A8 m c) (A9 m c)
    (A10 m c) (A11 m c) (A12 m c) (A13 m c) (A14 m c) r j).symm
  show Arrays.nodeG (V5 m ρ) c (ix2 r j) = _
  unfold Arrays.nodeG
  exact Arrays.nodeF_congr j (fun k => by rw [H.r1_arg0, aggr_eq H R]) (fun k n => H.r1_v14 k n) (fun n => H.r1_v19 n)
    (fun n => H.r1_v21 n) (fun n => H.r1_v22 n) (fun k n => H.r1_v16 k n) (fun n => H.r1_v20 n)

end Cert.Bridge

end
-- ==== Proof.Finite.lean ====
import proofs.«155204_j84877143703601_2_alg».proof.Defs
import proofs.«155204_j84877143703601_2_alg».proof.Proof.Spec
import Idealize.ShloMosaic.Lib.ReduceAll
import Idealize.ShloMosaic.Lib.ValueIdx

noncomputable section
namespace Cert.Finite
open Idealize.ShloMosaic Idealize.SL.Sem Cert.Gnn

/-- The shape of rank zero has one index. -/
private instance : Subsingleton Cert.Pre_finite_inputs.S_.Idx := ⟨fun a b => funext fun d => d.elim0⟩

/-- The pattern of +∞. -/
private theorem inf_eq_top : Ideal.ofBits .f32 0x7F800000#32 = (⊤ : EReal) := by simp [Ideal.ofBits, Ideal.ieee]

/-- An extended real whose absolute value lies strictly below +∞ is a real number. -/
private theorem isFin_of_abs_lt (y : EReal)
    (h : Ideal.cmp .olt (max y (-y)) (Ideal.ofBits .f32 0x7F800000#32) = 1#1) : IsFin y := by
  rw [inf_eq_top] at h
  induction y using EReal.rec with
  | bot => simp [Ideal.cmp] at h
  | coe r => exact ⟨r, rfl⟩
  | top => simp [Ideal.cmp] at h

/-- If every |x i| < +∞, reduced by "and" over all axes, comes out one, then every entry of x is a real number. -/
private theorem all_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ValueIdx.ix0 = 1#1) :
    ∀ i, IsFin (x i) := by
  intro i
  have h := Host.reduce_andi_all _ init hr hu ValueIdx.ix0 e i
  exact isFin_of_abs_lt (x i) h

/-- Under the precondition every entry of the edge features and of the six edge-side weights and biases is a real number. -/
theorem args_finite [hP : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsFin ((m ((c.tc : Thread Cert.KernelIdeal.nD Cert.KernelIdeal.τ).loc Cert.KernelIdeal.main_arg2) : FVec Ideal Cert.KernelIdeal.S800000x65 .f32) i))
    ∧ (∀ i, IsFin ((m ((c.tc : Thread Cert.KernelIdeal.nD Cert.KernelIdeal.τ).loc Cert.KernelIdeal.main_arg3) : FVec Ideal Cert.KernelIdeal.S256x64 .f32) i))
    ∧ (∀ i, IsFin ((m ((c.tc : Thread Cert.KernelIdeal.nD Cert.KernelIdeal.τ).loc Cert.KernelIdeal.main_arg4) : FVec Ideal Cert.KernelIdeal.S256 .f32) i))
    ∧ (∀ i, IsFin ((m ((c.tc : Thread Cert.KernelIdeal.nD Cert.KernelIdeal.τ).loc Cert.KernelIdeal.main_arg5) : FVec Ideal Cert.KernelIdeal.S256x256 .f32) i))
    ∧ (∀ i, IsFin ((m ((c.tc : Thread Cert.KernelIdeal.nD Cert.KernelIdeal.τ).loc Cert.KernelIdeal.main_arg6) : FVec Ideal Cert.KernelIdeal.S256 .f32) i))
    ∧ (∀ i, IsFin ((m ((c.tc : Thread Cert.KernelIdeal.nD Cert.KernelIdeal.τ).loc Cert.KernelIdeal.main_arg7) : FVec Ideal Cert.KernelIdeal.S256x256 .f32) i)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h14⟩ := IntOp.andi_eq_one.1 h
  obtain ⟨h, h13⟩ := IntOp.andi_eq_one.1 h
  obtain ⟨h, h12⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨_, h2⟩ := IntOp.andi_eq_one.1 h
  exact ⟨all_lt_inf _ _ _ _ _ h2, all_lt_inf _ _ _ _ _ h3, all_lt_inf _ _ _ _ _ h4, all_lt_inf _ _ _ _ _ h5,
    all_lt_inf _ _ _ _ _ h6, all_lt_inf _ _ _ _ _ h7⟩

end Cert.Finite
end
-- ==== Proof.HostReads.lean ====
/-
  What the host operations of the kernel program leave in the buffers its two grid regions read, on the extended reals:
  transposed weights, biases as 1 × 256 rows, the two folded products, and the aggregated messages as one function of
  the node features, the edge index array and region 0's output.
-/
import proofs.«155204_j84877143703601_2_alg».proof.Proof.Gen.KernelIdeal.Frame
import proofs.«155204_j84877143703601_2_alg».proof.Proof.MidK
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HostReads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (m : (ℓ : Loc nD τ sig) → Buf (Elt Ideal) ℓ) (ρ : Dev nD → PrngReg) (c : Dev nD)

/-! ## The launch arrays, as functions of their indices -/

abbrev A0 : S50000x256.Idx → EReal := m ((c : Thread nD τ).loc main_arg0)
abbrev A1 : (⟨S2x800000, .i32⟩ : BufTy).Contents (Elt Ideal) := m ((c : Thread nD τ).loc main_arg1)
abbrev A2 : S800000x65.Idx → EReal := m ((c : Thread nD τ).loc main_arg2)
abbrev A3 : S256x64.Idx → EReal := m ((c : Thread nD τ).loc main_arg3)
abbrev A4 : S256.Idx → EReal := m ((c : Thread nD τ).loc main_arg4)
abbrev A5 : S256x256.Idx → EReal := m ((c : Thread nD τ).loc main_arg5)
abbrev A6 : S256.Idx → EReal := m ((c : Thread nD τ).loc main_arg6)
abbrev A7 : S256x256.Idx → EReal := m ((c : Thread nD τ).loc main_arg7)
abbrev A8 : S256.Idx → EReal := m ((c : Thread nD τ).loc main_arg8)
abbrev A9 : S256x256.Idx → EReal := m ((c : Thread nD τ).loc main_arg9)
abbrev A10 : S256.Idx → EReal := m ((c : Thread nD τ).loc main_arg10)
abbrev A11 : S256.Idx → EReal := m ((c : Thread nD τ).loc main_arg11)
abbrev A12 : S256.Idx → EReal := m ((c : Thread nD τ).loc main_arg12)
abbrev A13 : S256x256.Idx → EReal := m ((c : Thread nD τ).loc main_arg13)
abbrev A14 : S256.Idx → EReal := m ((c : Thread nD τ).loc main_arg14)

/-! ## What each stretch of host operations leaves, over any entry contents -/

theorem s5_v35 (G : Valuation τ sig (Elt Ideal)) :
    StableHlo.after (hostOps1_2 (F := Ideal)) G (Proc.devRef .tc main_v35)
      = Host.scatterAdd scatter_S50000x256_S800000x1_S800000x256_1_0_0_1
          (broadcastInDim S50000x256 ![] bcast_S_S50000x256 (constant (F := Ideal) S_ .f32 0x00000000#32))
          (broadcastInDim S800000x1 ![0] bcast_S800000_S800000x1_0 (G (Proc.devRef .tc main_v3)))
          (G (Proc.devRef .tc main_v32)) := by
  after_results

theorem s4_v32 (G : Valuation τ sig (Elt Ideal)) :
    StableHlo.after (hostOps1_1 (F := Ideal)) G (Proc.devRef .tc main_v32)
      = maximumf (G (Proc.devRef .tc main_v31))
          (broadcastInDim S800000x256 ![] bcast_S_S800000x256 (constant (F := Ideal) S_ .f32 0x00000000#32)) := by
  after_results <;> rfl

theorem s3_v31 (G : Valuation τ sig (Elt Ideal)) :
    StableHlo.after (hostOps1 (F := Ideal)) G (Proc.devRef .tc main_v31)
      = addf (F := Ideal) (φ := .f32)
          (Host.gather gather_S50000x256_S800000x1_S800000x256_1_0_n_n_0_1_1256 (G (Proc.devRef .tc main_arg0))
            (broadcastInDim S800000x1 ![0] bcast_S800000_S800000x1_0
              (select
                (cmpi .slt (G (Proc.devRef .tc main_v1)) (broadcastInDim S800000 ![] bcast_S_S800000 (constantI S_ 32 0#32)))
                (addi (G (Proc.devRef .tc main_v1)) (broadcastInDim S800000 ![] bcast_S_S800000 (constantI S_ 32 50000#32)))
                (G (Proc.devRef .tc main_v1)))))
          (G (Proc.devRef .tc main_v23)) := by
  after_results

theorem s1_v1 (G : Valuation τ sig (Elt Ideal)) :
    StableHlo.after (hostOps0 (F := Ideal)) G (Proc.devRef .tc main_v1)
      = shapeCast S800000 (extractStridedSlice S1x800000 ![0, 0] (G (Proc.devRef .tc main_arg1)) slices_S2x800000_S1x800000_0_0) shapeCasts_S1x800000_S800000 := by
  after_results <;> rfl

theorem s1_v3 (G : Valuation τ sig (Elt Ideal)) :
    StableHlo.after (hostOps0 (F := Ideal)) G (Proc.devRef .tc main_v3)
      = shapeCast S800000 (extractStridedSlice S1x800000 ![1, 0] (G (Proc.devRef .tc main_arg1)) slices_S2x800000_S1x800000_1_0) shapeCasts_S1x800000_S800000 := by
  after_results <;> rfl

/-- A buffer no operation of the stretch writes keeps its contents. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Region 1's entry: the aggregated messages -/

theorem r1_v35 : V5 m ρ c main_v35 = Mid.midK (F := Ideal) (A0 m c) (A1 m c) (W2 m ρ c (Proc.devRef .tc main_v23)) := by
  have e3 : W4 m ρ c (Proc.devRef .tc main_v3)
      = shapeCast S800000 (extractStridedSlice S1x800000 ![1, 0] (A1 m c) slices_S2x800000_S1x800000_1_0) shapeCasts_S1x800000_S800000 :=
    calc W4 m ρ c (Proc.devRef .tc main_v3)
      _ = W3 m ρ c (Proc.devRef .tc main_v3) := by unwritten hostOps1_1
      _ = W2 m ρ c (Proc.devRef .tc main_v3) := by unwritten hostOps1
      _ = W1 m ρ c (Proc.devRef .tc main_v3) := W2_of_ne m ρ c main_v3 (by decide)
      _ = _ := s1_v3 (W0 m ρ c)
  have e1 : W2 m ρ c (Proc.devRef .tc main_v1)
      = shapeCast S800000 (extractStridedSlice S1x800000 ![0, 0] (A1 m c) slices_S2x800000_S1x800000_0_0) shapeCasts_S1x800000_S800000 :=
    (W2_of_ne m ρ c main_v1 (by decide)).trans (s1_v1 (W0 m ρ c))
  have e0 : W2 m ρ c (Proc.devRef .tc main_arg0) = A0 m c :=
    calc W2 m ρ c (Proc.devRef .tc main_arg0)
      _ = W1 m ρ c (Proc.devRef .tc main_arg0) := W2_of_ne m ρ c main_arg0 (by decide)
      _ = W0 m ρ c (Proc.devRef .tc main_arg0) := by unwritten hostOps0
      _ = _ := rfl
  have h31 := s3_v31 (W2 m ρ c)
  rw [e1, e0] at h31
  have h32 := s4_v32 (W3 m ρ c)
  have h35 := s5_v35 (W4 m ρ c)
  refine h35.trans ?_
  rw [e3]
  unfold Mid.midK
  refine congrArg _ ?_
  refine h32.trans ?_
  exact congrArg (fun z => maximumf z _) h31

/-! ## The layout operations of the first stretch, read at an index -/

/-- A conversion to the narrower format changes nothing on the extended reals. -/
private theorem trunc_at {s : Shape} (a : FVec Ideal s .f32) (i : s.Idx) :
    (truncf (F := Ideal) (φ := .f32) .bf16 a bitsLt_bf16_f32 : FVec Ideal s .bf16) i = a i := rfl

/-- A transposed 256 × 256 array at (a, b) is the array at (b, a). -/
private theorem tr256 (x : FVec Ideal S256x256 .f32) (a b : Fin 256) :
    transpose S256x256 [1, 0] x transposes_S256x256_S256x256_1_0 (ix2 a b) = x (ix2 b a) :=
  transpose_apply [1, 0] x transposes_S256x256_S256x256_1_0 (ix2 a b) (ix2 b a) (fun d => match d with
    | ⟨0, _⟩ => rfl
    | ⟨1, _⟩ => rfl)

/-- A transposed 256 × 64 array at (f, l) is the array at (l, f). -/
private theorem tr64 (x : FVec Ideal S256x64 .f32) (f : Fin 64) (l : Fin 256) :
    transpose S64x256 [1, 0] x transposes_S256x64_S64x256_1_0 (ix2 f l) = x (ix2 l f) :=
  transpose_apply [1, 0] x transposes_S256x64_S64x256_1_0 (ix2 f l) (ix2 l f) (fun d => match d with
    | ⟨0, _⟩ => rfl
    | ⟨1, _⟩ => rfl)

/-- A vector of length 256 cast to a 1 × 256 row, at (0, l), is the vector at l. -/
private theorem row256 (x : FVec Ideal S256 .f32) (l : Fin 256) :
    shapeCast S1x256 x shapeCasts_S256_S1x256 (ix2 (0 : Fin 1) l) = x (ix1 l) :=
  shapeCast_apply x shapeCasts_S256_S1x256 (ix2 (0 : Fin 1) l) (ix1 l) (by
    rw [Shape.rowMajor_val_one, Shape.rowMajor_val_two]
    show l.val = 0 * 256 + l.val
    omega)

private theorem dotSq_lhs0 (jj : S256x256.Idx) (q : dot_S256x256_S256x256_S256x256_1_0_0_1_n_n.contr.Idx) : (dot_S256x256_S256x256_S256x256_1_0_0_1_n_n.lhsIdx jj q 0).val = (jj 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
private theorem dotSq_lhs1 (jj : S256x256.Idx) (q : dot_S256x256_S256x256_S256x256_1_0_0_1_n_n.contr.Idx) : (dot_S256x256_S256x256_S256x256_1_0_0_1_n_n.lhsIdx jj q 1).val = (q ⟨0, by decide⟩).val :=
  dot_S256x256_S256x256_S256x256_1_0_0_1_n_n.lhsIdx_val_of_single rfl jj q
private theorem dotSq_rhs0 (jj : S256x256.Idx) (q : dot_S256x256_S256x256_S256x256_1_0_0_1_n_n.contr.Idx) : (dot_S256x256_S256x256_S256x256_1_0_0_1_n_n.rhsIdx jj q 0).val = (q ⟨0, by decide⟩).val :=
  dot_S256x256_S256x256_S256x256_1_0_0_1_n_n.rhsIdx_val_of_single rfl jj q
private theorem dotSq_rhs1 (jj : S256x256.Idx) (q : dot_S256x256_S256x256_S256x256_1_0_0_1_n_n.contr.Idx) : (dot_S256x256_S256x256_S256x256_1_0_0_1_n_n.rhsIdx jj q 1).val = (jj 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl
/-- The host's product of a 256 × 256 array by a 256 × 256 array, read at (i, j), is the sum over k of l (i, k) · r (k, j). -/
private theorem dotSq_apply (l : FVec Ideal S256x256 .f32) (r : FVec Ideal S256x256 .f32) (i : Fin 256) (j : Fin 256) :
    Host.dotGeneral (F := Ideal) (φ₁ := .f32) (φ₂ := .f32) dot_S256x256_S256x256_S256x256_1_0_0_1_n_n none l r (ix2 i j) = ∑ k : Fin 256, l (ix2 i k) * r (ix2 k j) := by
  simp only [Host.dotGeneral]
  rw [Ideal.dotGeneral_apply, ← Equiv.sum_comp (ValueIdx.contrEquiv1 dot_S256x256_S256x256_S256x256_1_0_0_1_n_n 256 rfl rfl).symm]
  refine Finset.sum_congr rfl fun k _ => ?_
  have hk := ValueIdx.contrEquiv1_symm_val dot_S256x256_S256x256_S256x256_1_0_0_1_n_n 256 rfl rfl k
  have el : dot_S256x256_S256x256_S256x256_1_0_0_1_n_n.lhsIdx (ix2 i j) ((ValueIdx.contrEquiv1 dot_S256x256_S256x256_S256x256_1_0_0_1_n_n 256 rfl rfl).symm k) = ix2 i k := funext fun a => Fin.ext (by
    match a with
    | ⟨0, _⟩ => exact dotSq_lhs0 _ _
    | ⟨1, _⟩ => exact (dotSq_lhs1 _ _).trans hk)
  have er : dot_S256x256_S256x256_S256x256_1_0_0_1_n_n.rhsIdx (ix2 i j) ((ValueIdx.contrEquiv1 dot_S256x256_S256x256_S256x256_1_0_0_1_n_n 256 rfl rfl).symm k) = ix2 k j := funext fun a => Fin.ext (by
    match a with
    | ⟨0, _⟩ => exact (dotSq_rhs0 _ _).trans hk
    | ⟨1, _⟩ => exact dotSq_rhs1 _ _)
  rw [el, er]

private theorem dotRow_lhs0 (jj : S1x256.Idx) (q : dot_S1x256_S256x256_S1x256_1_0_0_1_n_n.contr.Idx) : (dot_S1x256_S256x256_S1x256_1_0_0_1_n_n.lhsIdx jj q 0).val = (jj 0).val := by
  unfold DotDims.lhsIdx
  rw [dif_neg (show ¬(0 : Fin S1x256.rank) ∈ dot_S1x256_S256x256_S1x256_1_0_0_1_n_n.lhsBatch by decide), dif_pos (show (0 : Fin S1x256.rank) ∈ dot_S1x256_S256x256_S1x256_1_0_0_1_n_n.lhsNonContracting by decide)]
  rfl
private theorem dotRow_lhs1 (jj : S1x256.Idx) (q : dot_S1x256_S256x256_S1x256_1_0_0_1_n_n.contr.Idx) : (dot_S1x256_S256x256_S1x256_1_0_0_1_n_n.lhsIdx jj q 1).val = (q ⟨0, by decide⟩).val :=
  dot_S1x256_S256x256_S1x256_1_0_0_1_n_n.lhsIdx_val_of_single rfl jj q
private theorem dotRow_rhs0 (jj : S1x256.Idx) (q : dot_S1x256_S256x256_S1x256_1_0_0_1_n_n.contr.Idx) : (dot_S1x256_S256x256_S1x256_1_0_0_1_n_n.rhsIdx jj q 0).val = (q ⟨0, by decide⟩).val :=
  dot_S1x256_S256x256_S1x256_1_0_0_1_n_n.rhsIdx_val_of_single rfl jj q
private theorem dotRow_rhs1 (jj : S1x256.Idx) (q : dot_S1x256_S256x256_S1x256_1_0_0_1_n_n.contr.Idx) : (dot_S1x256_S256x256_S1x256_1_0_0_1_n_n.rhsIdx jj q 1).val = (jj 1).val := by
  unfold DotDims.rhsIdx
  rw [dif_neg (show ¬(1 : Fin S256x256.rank) ∈ dot_S1x256_S256x256_S1x256_1_0_0_1_n_n.rhsBatch by decide), dif_pos (show (1 : Fin S256x256.rank) ∈ dot_S1x256_S256x256_S1x256_1_0_0_1_n_n.rhsNonContracting by decide)]
  rfl
/-- The host's product of a 1 × 256 row by a 256 × 256 array, read at (i, j), is the sum over k of l (i, k) · r (k, j). -/
private theorem dotRow_apply (l : FVec Ideal S1x256 .f32) (r : FVec Ideal S256x256 .f32) (i : Fin 1) (j : Fin 256) :
    Host.dotGeneral (F := Ideal) (φ₁ := .f32) (φ₂ := .f32) dot_S1x256_S256x256_S1x256_1_0_0_1_n_n none l r (ix2 i j) = ∑ k : Fin 256, l (ix2 i k) * r (ix2 k j) := by
  simp only [Host.dotGeneral]
  rw [Ideal.dotGeneral_apply, ← Equiv.sum_comp (ValueIdx.contrEquiv1 dot_S1x256_S256x256_S1x256_1_0_0_1_n_n 256 rfl rfl).symm]
  refine Finset.sum_congr rfl fun k _ => ?_
  have hk := ValueIdx.contrEquiv1_symm_val dot_S1x256_S256x256_S1x256_1_0_0_1_n_n 256 rfl rfl k
  have el : dot_S1x256_S256x256_S1x256_1_0_0_1_n_n.lhsIdx (ix2 i j) ((ValueIdx.contrEquiv1 dot_S1x256_S256x256_S1x256_1_0_0_1_n_n 256 rfl rfl).symm k) = ix2 i k := funext fun a => Fin.ext (by
    match a with
    | ⟨0, _⟩ => exact dotRow_lhs0 _ _
    | ⟨1, _⟩ => exact (dotRow_lhs1 _ _).trans hk)
  have er : dot_S1x256_S256x256_S1x256_1_0_0_1_n_n.rhsIdx (ix2 i j) ((ValueIdx.contrEquiv1 dot_S1x256_S256x256_S1x256_1_0_0_1_n_n 256 rfl rfl).symm k) = ix2 k j := funext fun a => Fin.ext (by
    match a with
    | ⟨0, _⟩ => exact (dotRow_rhs0 _ _).trans hk
    | ⟨1, _⟩ => exact dotRow_rhs1 _ _)
  rw [el, er]

/-! ## What the first stretch leaves in the buffers the two regions read, over any entry contents -/

theorem s1_v5 (G : Valuation τ sig (Elt Ideal)) :
    StableHlo.after (hostOps0 (F := Ideal)) G (Proc.devRef .tc main_v5)
      = truncf (F := Ideal) (φ := .f32) .bf16 (transpose S64x256 [1, 0] (G (Proc.devRef .tc main_arg3)) transposes_S256x64_S64x256_1_0) bitsLt_bf16_f32 := by
  after_results <;> rfl

theorem s1_v9 (G : Valuation τ sig (Elt Ideal)) :
    StableHlo.after (hostOps0 (F := Ideal)) G (Proc.devRef .tc main_v9)
      = truncf (F := Ideal) (φ := .f32) .bf16
          (Host.dotGeneral (F := Ideal) (φ₁ := .f32) (φ₂ := .f32) dot_S256x256_S256x256_S256x256_1_0_0_1_n_n none
            (transpose S256x256 [1, 0] (G (Proc.devRef .tc main_arg5)) transposes_S256x256_S256x256_1_0)
            (transpose S256x256 [1, 0] (G (Proc.devRef .tc main_arg7)) transposes_S256x256_S256x256_1_0)) bitsLt_bf16_f32 := by
  after_results <;> rfl

theorem s1_v12 (G : Valuation τ sig (Elt Ideal)) :
    StableHlo.after (hostOps0 (F := Ideal)) G (Proc.devRef .tc main_v12)
      = Host.dotGeneral (F := Ideal) (φ₁ := .f32) (φ₂ := .f32) dot_S1x256_S256x256_S1x256_1_0_0_1_n_n none
          (shapeCast S1x256 (G (Proc.devRef .tc main_arg6)) shapeCasts_S256_S1x256)
          (transpose S256x256 [1, 0] (G (Proc.devRef .tc main_arg7)) transposes_S256x256_S256x256_1_0) := by
  after_results <;> rfl

theorem s1_v14 (G : Valuation τ sig (Elt Ideal)) :
    StableHlo.after (hostOps0 (F := Ideal)) G (Proc.devRef .tc main_v14)
      = truncf (F := Ideal) (φ := .f32) .bf16 (transpose S256x256 [1, 0] (G (Proc.devRef .tc main_arg9)) transposes_S256x256_S256x256_1_0) bitsLt_bf16_f32 := by
  after_results <;> rfl

theorem s1_v16 (G : Valuation τ sig (Elt Ideal)) :
    StableHlo.after (hostOps0 (F := Ideal)) G (Proc.devRef .tc main_v16)
      = truncf (F := Ideal) (φ := .f32) .bf16 (transpose S256x256 [1, 0] (G (Proc.devRef .tc main_arg13)) transposes_S256x256_S256x256_1_0) bitsLt_bf16_f32 := by
  after_results <;> rfl

theorem s1_v17 (G : Valuation τ sig (Elt Ideal)) :
    StableHlo.after (hostOps0 (F := Ideal)) G (Proc.devRef .tc main_v17)
      = shapeCast S1x256 (G (Proc.devRef .tc main_arg4)) shapeCasts_S256_S1x256 := by
  after_results <;> rfl

theorem s1_v18 (G : Valuation τ sig (Elt Ideal)) :
    StableHlo.after (hostOps0 (F := Ideal)) G (Proc.devRef .tc main_v18)
      = shapeCast S1x256 (G (Proc.devRef .tc main_arg8)) shapeCasts_S256_S1x256 := by
  after_results <;> rfl

theorem s1_v19 (G : Valuation τ sig (Elt Ideal)) :
    StableHlo.after (hostOps0 (F := Ideal)) G (Proc.devRef .tc main_v19)
      = shapeCast S1x256 (G (Proc.devRef .tc main_arg10)) shapeCasts_S256_S1x256 := by
  after_results <;> rfl

theorem s1_v20 (G : Valuation τ sig (Elt Ideal)) :
    StableHlo.after (hostOps0 (F := Ideal)) G (Proc.devRef .tc main_v20)
      = shapeCast S1x256 (G (Proc.devRef .tc main_arg14)) shapeCasts_S256_S1x256 := by
  after_results <;> rfl

theorem s1_v21 (G : Valuation τ sig (Elt Ideal)) :
    StableHlo.after (hostOps0 (F := Ideal)) G (Proc.devRef .tc main_v21)
      = shapeCast S1x256 (G (Proc.devRef .tc main_arg11)) shapeCasts_S256_S1x256 := by
  after_results <;> rfl

theorem s1_v22 (G : Valuation τ sig (Elt Ideal)) :
    StableHlo.after (hostOps0 (F := Ideal)) G (Proc.devRef .tc main_v22)
      = shapeCast S1x256 (G (Proc.devRef .tc main_arg12)) shapeCasts_S256_S1x256 := by
  after_results <;> rfl

/-! ## Region 0's entry -/

theorem r0_arg2 : V1 m ρ c main_arg2 = A2 m c :=
  calc W1 m ρ c (Proc.devRef .tc main_arg2)
    _ = W0 m ρ c (Proc.devRef .tc main_arg2) := by unwritten hostOps0
    _ = _ := rfl

theorem r0_v5 (f : Fin 64) (l : Fin 256) : V1 m ρ c main_v5 (ix2 f l) = A3 m c (ix2 l f) :=
  (congrFun (s1_v5 (W0 m ρ c)) (ix2 f l)).trans ((trunc_at _ _).trans (tr64 (A3 m c) f l))

theorem r0_v17 (l : Fin 256) : V1 m ρ c main_v17 (ix2 (0 : Fin 1) l) = A4 m c (ix1 l) :=
  (congrFun (s1_v17 (W0 m ρ c)) (ix2 (0 : Fin 1) l)).trans (row256 (A4 m c) l)

theorem r0_v9 (l j : Fin 256) : V1 m ρ c main_v9 (ix2 l j) = ∑ k : Fin 256, A5 m c (ix2 k l) * A7 m c (ix2 j k) := by
  refine (congrFun (s1_v9 (W0 m ρ c)) (ix2 l j)).trans ((trunc_at _ _).trans ?_)
  refine (dotSq_apply _ _ l j).trans (Finset.sum_congr rfl fun k _ => ?_)
  exact congrArg₂ (· * ·) (tr256 (A5 m c) l k) (tr256 (A7 m c) k j)

theorem r0_v12 (j : Fin 256) : V1 m ρ c main_v12 (ix2 (0 : Fin 1) j) = ∑ k : Fin 256, A6 m c (ix1 k) * A7 m c (ix2 j k) := by
  refine (congrFun (s1_v12 (W0 m ρ c)) (ix2 (0 : Fin 1) j)).trans ?_
  refine (dotRow_apply _ _ 0 j).trans (Finset.sum_congr rfl fun k _ => ?_)
  exact congrArg₂ (· * ·) (row256 (A6 m c) k) (tr256 (A7 m c) k j)

theorem r0_v18 (j : Fin 256) : V1 m ρ c main_v18 (ix2 (0 : Fin 1) j) = A8 m c (ix1 j) :=
  (congrFun (s1_v18 (W0 m ρ c)) (ix2 (0 : Fin 1) j)).trans (row256 (A8 m c) j)

/-! ## Region 1's entry: the buffers the first stretch wrote, which nothing writes afterwards -/

theorem back_arg0 : W5 m ρ c (Proc.devRef .tc main_arg0) = W1 m ρ c (Proc.devRef .tc main_arg0) :=
  calc W5 m ρ c (Proc.devRef .tc main_arg0)
    _ = W4 m ρ c (Proc.devRef .tc main_arg0) := by unwritten hostOps1_2
    _ = W3 m ρ c (Proc.devRef .tc main_arg0) := by unwritten hostOps1_1
    _ = W2 m ρ c (Proc.devRef .tc main_arg0) := by unwritten hostOps1
    _ = W1 m ρ c (Proc.devRef .tc main_arg0) := W2_of_ne m ρ c main_arg0 (by decide)

theorem back_v14 : W5 m ρ c (Proc.devRef .tc main_v14) = W1 m ρ c (Proc.devRef .tc main_v14) :=
  calc W5 m ρ c (Proc.devRef .tc main_v14)
    _ = W4 m ρ c (Proc.devRef .tc main_v14) := by unwritten hostOps1_2
    _ = W3 m ρ c (Proc.devRef .tc main_v14) := by unwritten hostOps1_1
    _ = W2 m ρ c (Proc.devRef .tc main_v14) := by unwritten hostOps1
    _ = W1 m ρ c (Proc.devRef .tc main_v14) := W2_of_ne m ρ c main_v14 (by decide)

theorem back_v19 : W5 m ρ c (Proc.devRef .tc main_v19) = W1 m ρ c (Proc.devRef .tc main_v19) :=
  calc W5 m ρ c (Proc.devRef .tc main_v19)
    _ = W4 m ρ c (Proc.devRef .tc main_v19) := by unwritten hostOps1_2
    _ = W3 m ρ c (Proc.devRef .tc main_v19) := by unwritten hostOps1_1
    _ = W2 m ρ c (Proc.devRef .tc main_v19) := by unwritten hostOps1
    _ = W1 m ρ c (Proc.devRef .tc main_v19) := W2_of_ne m ρ c main_v19 (by decide)

theorem back_v21 : W5 m ρ c (Proc.devRef .tc main_v21) = W1 m ρ c (Proc.devRef .tc main_v21) :=
  calc W5 m ρ c (Proc.devRef .tc main_v21)
    _ = W4 m ρ c (Proc.devRef .tc main_v21) := by unwritten hostOps1_2
    _ = W3 m ρ c (Proc.devRef .tc main_v21) := by unwritten hostOps1_1
    _ = W2 m ρ c (Proc.devRef .tc main_v21) := by unwritten hostOps1
    _ = W1 m ρ c (Proc.devRef .tc main_v21) := W2_of_ne m ρ c main_v21 (by decide)

theorem back_v22 : W5 m ρ c (Proc.devRef .tc main_v22) = W1 m ρ c (Proc.devRef .tc main_v22) :=
  calc W5 m ρ c (Proc.devRef .tc main_v22)
    _ = W4 m ρ c (Proc.devRef .tc main_v22) := by unwritten hostOps1_2
    _ = W3 m ρ c (Proc.devRef .tc main_v22) := by unwritten hostOps1_1
    _ = W2 m ρ c (Proc.devRef .tc main_v22) := by unwritten hostOps1
    _ = W1 m ρ c (Proc.devRef .tc main_v22) := W2_of_ne m ρ c main_v22 (by decide)

theorem back_v16 : W5 m ρ c (Proc.devRef .tc main_v16) = W1 m ρ c (Proc.devRef .tc main_v16) :=
  calc W5 m ρ c (Proc.devRef .tc main_v16)
    _ = W4 m ρ c (Proc.devRef .tc main_v16) := by unwritten hostOps1_2
    _ = W3 m ρ c (Proc.devRef .tc main_v16) := by unwritten hostOps1_1
    _ = W2 m ρ c (Proc.devRef .tc main_v16) := by unwritten hostOps1
    _ = W1 m ρ c (Proc.devRef .tc main_v16) := W2_of_ne m ρ c main_v16 (by decide)

theorem back_v20 : W5 m ρ c (Proc.devRef .tc main_v20) = W1 m ρ c (Proc.devRef .tc main_v20) :=
  calc W5 m ρ c (Proc.devRef .tc main_v20)
    _ = W4 m ρ c (Proc.devRef .tc main_v20) := by unwritten hostOps1_2
    _ = W3 m ρ c (Proc.devRef .tc main_v20) := by unwritten hostOps1_1
    _ = W2 m ρ c (Proc.devRef .tc main_v20) := by unwritten hostOps1
    _ = W1 m ρ c (Proc.devRef .tc main_v20) := W2_of_ne m ρ c main_v20 (by decide)

theorem r1_arg0 : V5 m ρ c main_arg0 = A0 m c :=
  (back_arg0 m ρ c).trans (calc W1 m ρ c (Proc.devRef .tc main_arg0)
    _ = W0 m ρ c (Proc.devRef .tc main_arg0) := by unwritten hostOps0
    _ = _ := rfl)

theorem r1_v14 (k n : Fin 256) : V5 m ρ c main_v14 (ix2 k n) = A9 m c (ix2 n k) :=
  (congrFun ((back_v14 m ρ c).trans (s1_v14 (W0 m ρ c))) (ix2 k n)).trans ((trunc_at _ _).trans (tr256 (A9 m c) k n))

theorem r1_v19 (n : Fin 256) : V5 m ρ c main_v19 (ix2 (0 : Fin 1) n) = A10 m c (ix1 n) :=
  (congrFun ((back_v19 m ρ c).trans (s1_v19 (W0 m ρ c))) (ix2 (0 : Fin 1) n)).trans (row256 (A10 m c) n)

theorem r1_v21 (n : Fin 256) : V5 m ρ c main_v21 (ix2 (0 : Fin 1) n) = A11 m c (ix1 n) :=
  (congrFun ((back_v21 m ρ c).trans (s1_v21 (W0 m ρ c))) (ix2 (0 : Fin 1) n)).trans (row256 (A11 m c) n)

theorem r1_v22 (n : Fin 256) : V5 m ρ c main_v22 (ix2 (0 : Fin 1) n) = A12 m c (ix1 n) :=
  (congrFun ((back_v22 m ρ c).trans (s1_v22 (W0 m ρ c))) (ix2 (0 : Fin 1) n)).trans (row256 (A12 m c) n)

theorem r1_v16 (k n : Fin 256) : V5 m ρ c main_v16 (ix2 k n) = A13 m c (ix2 n k) :=
  (congrFun ((back_v16 m ρ c).trans (s1_v16 (W0 m ρ c))) (ix2 k n)).trans ((trunc_at _ _).trans (tr256 (A13 m c) k n))

theorem r1_v20 (n : Fin 256) : V5 m ρ c main_v20 (ix2 (0 : Fin 1) n) = A14 m c (ix1 n) :=
  (congrFun ((back_v20 m ρ c).trans (s1_v20 (W0 m ρ c))) (ix2 (0 : Fin 1) n)).trans (row256 (A14 m c) n)

end Cert.KernelIdeal.HostReads
end
-- ==== Proof.lean ====
/-
  The certificate of one message-passing layer: a kernel program of two grid regions (an edge perceptron with a folded
  second layer, then a node perceptron with a layer normalisation) around a host gather and scatter-add, against a
  plain array program computing the same layer with the edge perceptron's layers unfolded.

  Frames. The two kernel programs' frames are the generated ones; the reference's is its generated run with the result
  dropped. Nothing was rewritten between the kernel program and its idealisation, so that conjunct is trivial.
  Values, on the extended reals. The kernel program's result buffer ends at the node region's output array; read row by
  row (NodeArray, KernelPayload) it is the node row function of the features, the aggregated messages and the node
  weights. The aggregated messages are one function (MidK) of the features, the edge index array and the edge region's
  output array; that array, row by row (EdgeArray, KernelPayload, HostReads), is the folded-order edge row function
  of the edge features and of the folded weights. The reference's result (RefValue) is the same node row function over
  its own scatter-add stage, which (MidR) is the same function of the features, the index array and its edge embedding
  stage, the reference-order edge row function. The precondition makes every edge-side input a real number (Finite),
  and on real numbers the two orders agree (EdgeLaw): a per-row scalar gate moves out of a sum and two finite sums
  exchange. So the two edge embeddings are one array, the aggregated messages one array, and the results are equal
  (Bridge).
-/
import proofs.«155204_j84877143703601_2_alg».proof.Defs
import proofs.«155204_j84877143703601_2_alg».proof.Proof.Gen.Kernel
import proofs.«155204_j84877143703601_2_alg».proof.Proof.Gen.Kernel.Frame
import proofs.«155204_j84877143703601_2_alg».proof.Proof.Gen.KernelIdeal
import proofs.«155204_j84877143703601_2_alg».proof.Proof.Gen.KernelIdeal.Frame
import proofs.«155204_j84877143703601_2_alg».proof.Proof.Gen.ReferenceIdeal
import proofs.«155204_j84877143703601_2_alg».proof.Proof.Gen.Pre_finite_inputs
import proofs.«155204_j84877143703601_2_alg».proof.Proof.Gen.ReferenceIdeal.Run
import proofs.«155204_j84877143703601_2_alg».proof.Proof.Gen.ReferenceIdeal.Read
import proofs.«155204_j84877143703601_2_alg».proof.Proof.KernelRun
import proofs.«155204_j84877143703601_2_alg».proof.Proof.Bridge
import proofs.«155204_j84877143703601_2_alg».proof.Proof.Finite
import proofs.«155204_j84877143703601_2_alg».proof.Proof.HostReads
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

section Values

open Cert.KernelIdeal Cert.KernelIdeal.Gen

variable (m : (ℓ : Loc nD τ sig) → Buf (Elt Ideal) ℓ) (ρ : Dev nD → PrngReg) (c : Dev nD)

/-- What the host operations leave in the buffers the two regions read. -/
theorem host_facts : Cert.Bridge.HostFacts m ρ c :=
  ⟨HostReads.r0_arg2 m ρ c, HostReads.r0_v5 m ρ c, HostReads.r0_v17 m ρ c, HostReads.r0_v9 m ρ c, HostReads.r0_v12 m ρ c,
    HostReads.r0_v18 m ρ c, HostReads.r1_arg0 m ρ c, HostReads.r1_v35 m ρ c, HostReads.r1_v14 m ρ c, HostReads.r1_v19 m ρ c,
    HostReads.r1_v21 m ρ c, HostReads.r1_v22 m ρ c, HostReads.r1_v16 m ρ c, HostReads.r1_v20 m ρ c⟩

/-- Under the precondition the edge-side inputs are real. -/
theorem edge_real (hpre : Cert.Pre_KernelIdeal m) : Cert.Bridge.EdgeReal m c := by
  obtain ⟨h2, h3, h4, h5, h6, h7⟩ := Cert.Finite.args_finite m hpre c
  exact ⟨h2, h3, h4, h5, h6, h7⟩

end Values

/-- From memories agreeing on the arguments both programs run, and the reference's result is the kernel program's. -/
theorem algebraic : Cert.algebraic_KernelIdeal_ReferenceIdeal := by
  intro m ρ m' ρ' hpre hagree
  refine ⟨fun c => Cert.KernelIdeal.Gen.W6 m ρ c (Proc.devRef .tc Cert.KernelIdeal.main_v36),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v74_eq, h0, h1, h2, h3, h4, h5, h6, h7, h8, h9, h10, h11, h12, h13, h14]
  exact (Cert.Bridge.result_eq (host_facts m ρ c) (edge_real m c hpre)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
